-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x9x352x1216 : Shape := ⟨4, ![16, 9, 352, 1216]⟩
abbrev S16x1x352x1216 : Shape := ⟨4, ![16, 1, 352, 1216]⟩
abbrev S_ : Shape := ⟨0, ![]⟩

class Facts : Prop where
  bcast_S_S16x9x352x1216 : S_.BroadcastsInDim S16x9x352x1216 (![] : Fin 0 → Fin S16x9x352x1216.rank)
  reducesTo_S16x9x352x1216_S_d0_1_2_3 : S16x9x352x1216.ReducesTo [0, 1, 2, 3] S_
  h_S_ : 0 < S_.numel
  bcast_S_S16x1x352x1216 : S_.BroadcastsInDim S16x1x352x1216 (![] : Fin 0 → Fin S16x1x352x1216.rank)
  reducesTo_S16x1x352x1216_S_d0_1_2_3 : S16x1x352x1216.ReducesTo [0, 1, 2, 3] S_

variable [Facts]

def fn {F : FTy → Type} [FloatOps F] (main_arg0 : FVec F S16x9x352x1216 .f32) (main_arg1 : FVec F S16x1x352x1216 .f32) (main_arg2 : FVec F S16x1x352x1216 .f32) : IVec S_ 1 :=
  let main_v0 : FVec F S16x9x352x1216 .f32 := Host.absf main_arg0
  let main_cst : FVec F S_ .f32 := constant S_ .f32 0x7F800000#32
  let main_v1 : FVec F S16x9x352x1216 .f32 := broadcastInDim S16x9x352x1216 ![] bcast_S_S16x9x352x1216 main_cst
  let main_v2 : IVec S16x9x352x1216 1 := cmpf .olt main_v0 main_v1
  let main_c : IVec S_ 1 := constantI S_ 1 1#1
  let main_v3 : IVec S_ 1 := (fun x v => Host.reduce IntOp.andi x v reducesTo_S16x9x352x1216_S_d0_1_2_3 h_S_) main_v2 main_c
  let main_v4 : FVec F S16x1x352x1216 .f32 := Host.absf main_arg1
  let main_cst_0 : FVec F S_ .f32 := constant S_ .f32 0x7F800000#32
  let main_v5 : FVec F S16x1x352x1216 .f32 := broadcastInDim S16x1x352x1216 ![] bcast_S_S16x1x352x1216 main_cst_0
  let main_v6 : IVec S16x1x352x1216 1 := cmpf .olt main_v4 main_v5
  let main_c_1 : IVec S_ 1 := constantI S_ 1 1#1
  let main_v7 : IVec S_ 1 := (fun x v => Host.reduce IntOp.andi x v reducesTo_S16x1x352x1216_S_d0_1_2_3 h_S_) main_v6 main_c_1
  let main_v8 : IVec S_ 1 := andi main_v3 main_v7
  let main_v9 : FVec F S16x1x352x1216 .f32 := Host.absf main_arg2
  let main_cst_2 : FVec F S_ .f32 := constant S_ .f32 0x7F800000#32
  let main_v10 : FVec F S16x1x352x1216 .f32 := broadcastInDim S16x1x352x1216 ![] bcast_S_S16x1x352x1216 main_cst_2
  let main_v11 : IVec S16x1x352x1216 1 := cmpf .olt main_v9 main_v10
  let main_c_3 : IVec S_ 1 := constantI S_ 1 1#1
  let main_v12 : IVec S_ 1 := (fun x v => Host.reduce IntOp.andi x v reducesTo_S16x1x352x1216_S_d0_1_2_3 h_S_) main_v11 main_c_3
  let main_v13 : IVec S_ 1 := andi main_v8 main_v12
  main_v13
-- ==== Kernel.lean ====
abbrev S16x9x352x1216 : Shape := ⟨4, ![16, 9, 352, 1216]⟩
abbrev S16x1x352x1216 : Shape := ⟨4, ![16, 1, 352, 1216]⟩
abbrev S1x9x352x1216 : Shape := ⟨4, ![1, 9, 352, 1216]⟩
abbrev S1x1x352x1216 : Shape := ⟨4, ![1, 1, 352, 1216]⟩
abbrev S352x1216 : Shape := ⟨2, ![352, 1216]⟩
abbrev S352x1 : Shape := ⟨2, ![352, 1]⟩
abbrev S352x1218 : Shape := ⟨2, ![352, 1218]⟩
abbrev S1x1218 : Shape := ⟨2, ![1, 1218]⟩
abbrev S354x1218 : Shape := ⟨2, ![354, 1218]⟩

abbrev nBuf : Space → Nat
  | .hbm => 4
  | .vmem => 8
  | .smem => 0
  | _ => 0

abbrev bufTy : (tb : Table) → Fin (tcTables nBuf tb) → BufTy
  | .hbm, ⟨0, _⟩ => ⟨S16x9x352x1216, .f32⟩
  | .hbm, ⟨1, _⟩ => ⟨S16x1x352x1216, .f32⟩
  | .hbm, ⟨2, _⟩ => ⟨S16x1x352x1216, .f32⟩
  | .hbm, ⟨3, _⟩ => ⟨S16x1x352x1216, .f32⟩
  | .local _ .vmem, ⟨0, _⟩ => ⟨S1x9x352x1216, .f32⟩
  | .local _ .vmem, ⟨1, _⟩ => ⟨S1x9x352x1216, .f32⟩
  | .local _ .vmem, ⟨2, _⟩ => ⟨S1x1x352x1216, .f32⟩
  | .local _ .vmem, ⟨3, _⟩ => ⟨S1x1x352x1216, .f32⟩
  | .local _ .vmem, ⟨4, _⟩ => ⟨S1x1x352x1216, .f32⟩
  | .local _ .vmem, ⟨5, _⟩ => ⟨S1x1x352x1216, .f32⟩
  | .local _ .vmem, ⟨6, _⟩ => ⟨S1x1x352x1216, .f32⟩
  | .local _ .vmem, ⟨7, _⟩ => ⟨S1x1x352x1216, .f32⟩
  | _, _ => ⟨S16x9x352x1216, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x9x352x1216 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x352x1216 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x352x1216 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x352x1216 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S1x1x352x1216_S1x1x352x1216_0_0_0_0 : ∀ a, (![0, 0, 0, 0] : Fin 4 → Nat) a + S1x1x352x1216.size a ≤ S1x1x352x1216.size a
  h_S1x1x352x1216 : 0 < S1x1x352x1216.numel
  shapeCasts_S1x1x352x1216_S352x1216 : S1x1x352x1216.ShapeCasts S352x1216
  concatenates_S352x1_S352x1216_S352x1_S352x1218_d1 : Shape.Concatenates [S352x1, S352x1216, S352x1] S352x1218 1
  concatenates_S1x1218_S352x1218_S1x1218_S354x1218_d0 : Shape.Concatenates [S1x1218, S352x1218, S1x1218] S354x1218 0
  slices_S354x1218_o0_0_S352x1216 : S354x1218.Slices ![0, 0] S352x1216
  inb_S1x9x352x1216_S1x1x352x1216_0_0_0_0 : ∀ a, (![0, 0, 0, 0] : Fin 4 → Nat) a + S1x1x352x1216.size a ≤ S1x9x352x1216.size a
  slices_S354x1218_o0_1_S352x1216 : S354x1218.Slices ![0, 1] S352x1216
  inb_S1x9x352x1216_S1x1x352x1216_0_1_0_0 : ∀ a, (![0, 1, 0, 0] : Fin 4 → Nat) a + S1x1x352x1216.size a ≤ S1x9x352x1216.size a
  slices_S354x1218_o0_2_S352x1216 : S354x1218.Slices ![0, 2] S352x1216
  inb_S1x9x352x1216_S1x1x352x1216_0_2_0_0 : ∀ a, (![0, 2, 0, 0] : Fin 4 → Nat) a + S1x1x352x1216.size a ≤ S1x9x352x1216.size a
  slices_S354x1218_o1_0_S352x1216 : S354x1218.Slices ![1, 0] S352x1216
  inb_S1x9x352x1216_S1x1x352x1216_0_3_0_0 : ∀ a, (![0, 3, 0, 0] : Fin 4 → Nat) a + S1x1x352x1216.size a ≤ S1x9x352x1216.size a
  inb_S1x9x352x1216_S1x1x352x1216_0_4_0_0 : ∀ a, (![0, 4, 0, 0] : Fin 4 → Nat) a + S1x1x352x1216.size a ≤ S1x9x352x1216.size a
  slices_S354x1218_o1_2_S352x1216 : S354x1218.Slices ![1, 2] S352x1216
  inb_S1x9x352x1216_S1x1x352x1216_0_5_0_0 : ∀ a, (![0, 5, 0, 0] : Fin 4 → Nat) a + S1x1x352x1216.size a ≤ S1x9x352x1216.size a
  slices_S354x1218_o2_0_S352x1216 : S354x1218.Slices ![2, 0] S352x1216
  inb_S1x9x352x1216_S1x1x352x1216_0_6_0_0 : ∀ a, (![0, 6, 0, 0] : Fin 4 → Nat) a + S1x1x352x1216.size a ≤ S1x9x352x1216.size a
  slices_S354x1218_o2_1_S352x1216 : S354x1218.Slices ![2, 1] S352x1216
  inb_S1x9x352x1216_S1x1x352x1216_0_7_0_0 : ∀ a, (![0, 7, 0, 0] : Fin 4 → Nat) a + S1x1x352x1216.size a ≤ S1x9x352x1216.size a
  slices_S354x1218_o2_2_S352x1216 : S354x1218.Slices ![2, 2] S352x1216
  inb_S1x9x352x1216_S1x1x352x1216_0_8_0_0 : ∀ a, (![0, 8, 0, 0] : Fin 4 → Nat) a + S1x1x352x1216.size a ≤ S1x9x352x1216.size a
  shapeCasts_S352x1216_S1x1x352x1216 : S352x1216.ShapeCasts S1x1x352x1216
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x9x352x1216.size a ≤ S16x9x352x1216.size a
  hwx0_0 : ∀ i : grid0.Coords, EltTy.bits .f32 = 32 ∨ (Rect.block (s := S16x9x352x1216) S1x9x352x1216.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x352x1216.size a ≤ S16x1x352x1216.size a
  hwx0_1 : ∀ i : grid0.Coords, EltTy.bits .f32 = 32 ∨ (Rect.block (s := S16x1x352x1216) S1x1x352x1216.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x352x1216.size a ≤ S16x1x352x1216.size a
  hwx0_2 : ∀ i : grid0.Coords, EltTy.bits .f32 = 32 ∨ (Rect.block (s := S16x1x352x1216) S1x1x352x1216.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x352x1216.size a ≤ S16x1x352x1216.size a
  hwx0_3 : ∀ i : grid0.Coords, EltTy.bits .f32 = 32 ∨ (Rect.block (s := S16x1x352x1216) S1x1x352x1216.size (cc0_transform_3 i) (hinb0_3 i)).WholeWords (EltTy.packing .f32)

variable [Facts₀]

abbrev win0_0 : Pipeline.Window sig grid0 :=
  Pipeline.Window.ofSpec (Memref.whole main_arg0) S1x9x352x1216.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1x352x1216.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x1x352x1216.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x1x352x1216.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16x9x352x1216 : Shape := ⟨4, ![16, 9, 352, 1216]⟩
abbrev S16x1x352x1216 : Shape := ⟨4, ![16, 1, 352, 1216]⟩
abbrev S16x352x1216 : Shape := ⟨3, ![16, 352, 1216]⟩
abbrev S_ : Shape := ⟨0, ![]⟩
abbrev S16x354x1218 : Shape := ⟨3, ![16, 354, 1218]⟩
abbrev S1 : Shape := ⟨1, ![1]⟩

abbrev nBuf : Space → Nat
  | .hbm => 34
  | .vmem => 0
  | .smem => 0
  | _ => 0

abbrev bufTy : (tb : Table) → Fin (tcTables nBuf tb) → BufTy
  | .hbm, ⟨0, _⟩ => ⟨S16x9x352x1216, .f32⟩
  | .hbm, ⟨1, _⟩ => ⟨S16x1x352x1216, .f32⟩
  | .hbm, ⟨2, _⟩ => ⟨S16x1x352x1216, .f32⟩
  | .hbm, ⟨3, _⟩ => ⟨S16x352x1216, .f32⟩
  | .hbm, ⟨4, _⟩ => ⟨S_, .i32⟩
  | .hbm, ⟨5, _⟩ => ⟨S_, .f32⟩
  | .hbm, ⟨6, _⟩ => ⟨S16x354x1218, .f32⟩
  | .hbm, ⟨7, _⟩ => ⟨S16x352x1216, .f32⟩
  | .hbm, ⟨8, _⟩ => ⟨S16x352x1216, .f32⟩
  | .hbm, ⟨9, _⟩ => ⟨S16x352x1216, .f32⟩
  | .hbm, ⟨10, _⟩ => ⟨S16x352x1216, .f32⟩
  | .hbm, ⟨11, _⟩ => ⟨S16x352x1216, .f32⟩
  | .hbm, ⟨12, _⟩ => ⟨S16x352x1216, .f32⟩
  | .hbm, ⟨13, _⟩ => ⟨S16x352x1216, .f32⟩
  | .hbm, ⟨14, _⟩ => ⟨S16x352x1216, .f32⟩
  | .hbm, ⟨15, _⟩ => ⟨S16x352x1216, .f32⟩
  | .hbm, ⟨16, _⟩ => ⟨S16x1x352x1216, .f32⟩
  | .hbm, ⟨17, _⟩ => ⟨S16x1x352x1216, .f32⟩
  | .hbm, ⟨18, _⟩ => ⟨S16x1x352x1216, .f32⟩
  | .hbm, ⟨19, _⟩ => ⟨S16x1x352x1216, .f32⟩
  | .hbm, ⟨20, _⟩ => ⟨S16x1x352x1216, .f32⟩
  | .hbm, ⟨21, _⟩ => ⟨S16x1x352x1216, .f32⟩
  | .hbm, ⟨22, _⟩ => ⟨S16x1x352x1216, .f32⟩
  | .hbm, ⟨23, _⟩ => ⟨S16x1x352x1216, .f32⟩
  | .hbm, ⟨24, _⟩ => ⟨S16x1x352x1216, .f32⟩
  | .hbm, ⟨25, _⟩ => ⟨S16x9x352x1216, .f32⟩
  | .hbm, ⟨26, _⟩ => ⟨S16x352x1216, .f32⟩
  | .hbm, ⟨27, _⟩ => ⟨S_, .i32⟩
  | .hbm, ⟨28, _⟩ => ⟨S1, .i32⟩
  | .hbm, ⟨29, _⟩ => ⟨S16x9x352x1216, .f32⟩
  | .hbm, ⟨30, _⟩ => ⟨S16x9x352x1216, .f32⟩
  | .hbm, ⟨31, _⟩ => ⟨S_, .f32⟩
  | .hbm, ⟨32, _⟩ => ⟨S16x352x1216, .f32⟩
  | .hbm, ⟨33, _⟩ => ⟨S16x1x352x1216, .f32⟩
  | _, _ => ⟨S16x9x352x1216, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_c_0 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_cst : Ref sig .tc := ⟨.hbm, 31, rfl⟩
abbrev main_v25 : Ref sig .tc := ⟨.hbm, 32, rfl⟩
abbrev main_v26 : Ref sig .tc := ⟨.hbm, 33, rfl⟩

abbrev nD : Nat := 1
abbrev τ : Topo := Topo.v7x

variable {F : FTy → Type} [FloatOps F]

class Facts₀ : Prop where
  shapeCasts_S16x1x352x1216_S16x352x1216 : S16x1x352x1216.ShapeCasts S16x352x1216
  pads_S16x352x1216_S16x354x1218_000_110_110 : S16x352x1216.Pads (![0, 1, 1] : Fin 3 → Nat) ![0, 1, 1] ![0, 0, 0] S16x354x1218
  h_S_ : 0 < S_.numel
  slices_S16x354x1218_S16x352x1216_0_0_0 : S16x354x1218.Slices ![0, 0, 0] S16x352x1216
  slices_S16x354x1218_S16x352x1216_0_0_1 : S16x354x1218.Slices ![0, 0, 1] S16x352x1216
  slices_S16x354x1218_S16x352x1216_0_0_2 : S16x354x1218.Slices ![0, 0, 2] S16x352x1216
  slices_S16x354x1218_S16x352x1216_0_1_0 : S16x354x1218.Slices ![0, 1, 0] S16x352x1216
  slices_S16x354x1218_S16x352x1216_0_1_1 : S16x354x1218.Slices ![0, 1, 1] S16x352x1216
  slices_S16x354x1218_S16x352x1216_0_1_2 : S16x354x1218.Slices ![0, 1, 2] S16x352x1216
  slices_S16x354x1218_S16x352x1216_0_2_0 : S16x354x1218.Slices ![0, 2, 0] S16x352x1216
  slices_S16x354x1218_S16x352x1216_0_2_1 : S16x354x1218.Slices ![0, 2, 1] S16x352x1216
  slices_S16x354x1218_S16x352x1216_0_2_2 : S16x354x1218.Slices ![0, 2, 2] S16x352x1216
  bcast_S16x352x1216_S16x1x352x1216_0_2_3 : S16x352x1216.BroadcastsInDim S16x1x352x1216 (![0, 2, 3] : Fin 3 → Fin S16x1x352x1216.rank)
  concatenates_S16x1x352x1216_S16x1x352x1216_S16x1x352x1216_S16x1x352x1216_S16x1x352x1216_S16x1x352x1216_S16x1x352x1216_S16x1x352x1216_S16x1x352x1216_S16x9x352x1216_d1 : Shape.Concatenates [S16x1x352x1216, S16x1x352x1216, S16x1x352x1216, S16x1x352x1216, S16x1x352x1216, S16x1x352x1216, S16x1x352x1216, S16x1x352x1216, S16x1x352x1216] S16x9x352x1216 1
  bcast_S_S1 : S_.BroadcastsInDim S1 (![] : Fin 0 → Fin S1.rank)
  reducesTo_S16x9x352x1216_S16x352x1216_d1 : S16x9x352x1216.ReducesTo [1] S16x352x1216
  scatter_S16x9x352x1216_S1_S16x352x1216_012_1_1_0_wf : ScatterDims.WF S16x9x352x1216 S1 S16x352x1216 [0, 1, 2] [1] [1] 0

variable [Facts₀]

def scatter_S16x9x352x1216_S1_S16x352x1216_012_1_1_0 : ScatterDims S16x9x352x1216 S1 S16x352x1216 where
  updateWindowDims := [0, 1, 2]
  insertedWindowDims := [1]
  scatterDimsToOperandDims := [1]
  indexVectorDim := 0
  wf := scatter_S16x9x352x1216_S1_S16x352x1216_012_1_1_0_wf

class Facts : Prop extends Facts₀ where

variable [Facts]
-- ==== Proof.Spec.lean ====
/-
  The specification: a 3×3 window sum over a zero-bordered plane, with the centre tap taken from a second array.

  For a batch entry `b` and a pixel `(h, w)` of a 352 × 1216 plane, the result is
      Σ_{k < 9}  K[b, k, h, w] · tap_k(b, h, w),
  where for `k ≠ 4` the tap is the plane `X[b]`, surrounded by one row and one column of zeros on every side, read at
  the pixel shifted by `(k / 3, k % 3)` in the bordered plane's coordinates, and tap 4 is `X0[b, h, w]`.
  `ext Q` is a plane extended by zero to all natural coordinates, `halo P` the bordered plane (its coordinate `(r, c)`
  is the plane's `(r - 1, c - 1)`; row 0 and column 0 are zero, and so is everything past the plane since `ext` is zero
  there). `window9` writes the nine products out, added left to right; `conv` is it at an index of the whole arrays and
  `convBlock` at an index of one batch entry's block. No program is imported here.
-/
import Idealize.ShloMosaic.PureOps.Ideal
import Idealize.ShloMosaic.Lib.ValueIdx

noncomputable section

open scoped BigOperators

namespace Cert.Window

open Idealize.ShloMosaic Idealize.ShloMosaic.ValueIdx

/-- A 352 × 1216 plane extended by zero to every pair of natural coordinates. -/
def ext (Q : Fin 352 → Fin 1216 → EReal) (r c : Nat) : EReal :=
  if h : r < 352 ∧ c < 1216 then Q ⟨r, h.1⟩ ⟨c, h.2⟩ else 0

/-- The plane `P` with one row of zeros above and one column of zeros to the left (what lies past `P` on the other two
    sides is whatever `P` is there: zero for an `ext`). -/
def halo (P : Nat → Nat → EReal) (r c : Nat) : EReal :=
  if 1 ≤ r ∧ 1 ≤ c then P (r - 1) (c - 1) else 0

/-- Inside the border the bordered plane is the plane, one step up and to the left. -/
theorem halo_ext_inside (Q : Fin 352 → Fin 1216 → EReal) (r c : Nat) (hr : 1 ≤ r) (hr' : r ≤ 352) (hc : 1 ≤ c)
    (hc' : c ≤ 1216) : halo (ext Q) r c = Q ⟨r - 1, by omega⟩ ⟨c - 1, by omega⟩ := by
  unfold halo ext
  rw [if_pos ⟨hr, hc⟩, dif_pos ⟨by omega, by omega⟩]

/-- On the border — row 0, a row past 352, column 0 or a column past 1216 — it is zero. -/
theorem halo_ext_border (Q : Fin 352 → Fin 1216 → EReal) (r c : Nat) (h : r = 0 ∨ 352 < r ∨ c = 0 ∨ 1216 < c) :
    halo (ext Q) r c = 0 := by
  unfold halo ext
  by_cases h1 : 1 ≤ r ∧ 1 ≤ c
  · rw [if_pos h1, dif_neg (by omega)]
  · rw [if_neg h1]

/-- The nine products of a 3×3 window at `(h, w)` of the bordered plane, the centre one against `z`, added left to
    right in the order of the taps. -/
def window9 (K : Fin 9 → EReal) (Q : Fin 352 → Fin 1216 → EReal) (z : EReal) (h w : Nat) : EReal :=
  K 0 * halo (ext Q) h w + K 1 * halo (ext Q) h (w + 1) + K 2 * halo (ext Q) h (w + 2)
    + K 3 * halo (ext Q) (h + 1) w + K 4 * z + K 5 * halo (ext Q) (h + 1) (w + 2)
    + K 6 * halo (ext Q) (h + 2) w + K 7 * halo (ext Q) (h + 2) (w + 1) + K 8 * halo (ext Q) (h + 2) (w + 2)

/-- The result array as one function of the three argument arrays: at `(b, 0, h, w)` the window sum of plane `b` of `X`
    with the weights `K[b, ·, h, w]` and the centre tap `X0[b, 0, h, w]`. -/
def conv (K : (⟨4, ![16, 9, 352, 1216]⟩ : Shape).Idx → EReal) (X X0 : (⟨4, ![16, 1, 352, 1216]⟩ : Shape).Idx → EReal) :
    (⟨4, ![16, 1, 352, 1216]⟩ : Shape).Idx → EReal := fun i =>
  window9 (fun k => K (ix4 (i 0) k (i 2) (i 3))) (fun r c => X (ix4 (i 0) 0 r c)) (X0 (ix4 (i 0) 0 (i 2) (i 3)))
    (i 2).val (i 3).val

/-- The same for ONE batch entry's blocks: nine weight planes, the plane and the centre plane. -/
def convBlock (K : (⟨4, ![1, 9, 352, 1216]⟩ : Shape).Idx → EReal) (X X0 : (⟨4, ![1, 1, 352, 1216]⟩ : Shape).Idx → EReal) :
    (⟨4, ![1, 1, 352, 1216]⟩ : Shape).Idx → EReal := fun y =>
  window9 (fun k => K (ix4 0 k (y 2) (y 3))) (fun r c => X (ix4 0 0 r c)) (X0 (ix4 0 0 (y 2) (y 3)))
    (y 2).val (y 3).val

/-- A sum over nine indices written out, added left to right. -/
theorem sum_fin9 {M : Type} [AddCommMonoid M] (T : Fin 9 → M) :
    ∑ k : Fin 9, T k = T 0 + T 1 + T 2 + T 3 + T 4 + T 5 + T 6 + T 7 + T 8 := by
  rw [Fin.sum_univ_castSucc, Fin.sum_univ_eight]
  rfl

end Cert.Window

end
-- ==== Proof.KernelBorder.lean ====
/-
  The kernel's bordered plane. The body lays the plane it loaded, [352, 1216], between two columns of zeros and
  then between two rows of zeros, a [354, 1218] array. Read at `(r, c)` this is the plane at `(r - 1, c - 1)` when
  `1 ≤ r ≤ 352` and `1 ≤ c ≤ 1216`, and zero on the four border strips: `halo (ext …)` of the specification.
  A joined array read at an index is the piece whose span holds the index's coordinate on the joined axis; the
  two joins are opened one after the other, rows first.
-/
import proofs.«172562_j38122129719886_1_alg».proof.Proof.Gen.KernelIdeal.Frame
import proofs.«172562_j38122129719886_1_alg».proof.Proof.Spec
import Idealize.ShloMosaic.Lib.Pipeline.Value
import Idealize.ShloMosaic.PureOps.Ideal.Laws

noncomputable section

namespace Cert.KernelIdeal.Hand

open Cert.KernelIdeal Cert.KernelIdeal.Gen Idealize.ShloMosaic Idealize.ShloMosaic.ValueIdx Cert.Window

/-- The bordered plane as the two joins of the loaded block and zero strips. -/
theorem bordered_eq (x1 : Vec Ideal S1x1x352x1216 .f32) :
    k0_pay3 x1 = concatenate S354x1218 0
      [⟨S1x1218, broadcast S1x1218 (Scalar.ofBits (F := Ideal) .f32 0x00000000#32)⟩,
       ⟨S352x1218, concatenate S352x1218 1
          [⟨S352x1, broadcast S352x1 (Scalar.ofBits (F := Ideal) .f32 0x00000000#32)⟩,
           ⟨S352x1216, shapeCast S352x1216 x1 shapeCasts_S1x1x352x1216_S352x1216⟩,
           ⟨S352x1, broadcast S352x1 (Scalar.ofBits (F := Ideal) .f32 0x00000000#32)⟩]
          concatenates_S352x1_S352x1216_S352x1_S352x1218_d1⟩,
       ⟨S1x1218, broadcast S1x1218 (Scalar.ofBits (F := Ideal) .f32 0x00000000#32)⟩]
      concatenates_S1x1218_S352x1218_S1x1218_S354x1218_d0 := rfl

/-- The zero word is the real number zero. -/
theorem zero_word : Scalar.ofBits (F := Ideal) .f32 0x00000000#32 = (0 : EReal) := Ideal.ofBits_zero_f32

/-- The plane between its two zero columns, read at `(r, c)` of the [352, 1218] array. -/
theorem columns_at (x1 : Vec Ideal S1x1x352x1216 .f32) (r : Fin 352) (c : Fin 1218) :
    concatenate S352x1218 1
        [⟨S352x1, broadcast S352x1 (Scalar.ofBits (F := Ideal) .f32 0x00000000#32)⟩,
         ⟨S352x1216, shapeCast S352x1216 x1 shapeCasts_S1x1x352x1216_S352x1216⟩,
         ⟨S352x1, broadcast S352x1 (Scalar.ofBits (F := Ideal) .f32 0x00000000#32)⟩]
        concatenates_S352x1_S352x1216_S352x1_S352x1218_d1 (ix2 r c)
      = halo (ext fun r c => x1 (ix4 0 0 r c)) (r.val + 1) c.val := by
  have hr : r.val < 352 := r.isLt
  have hc : c.val < 1218 := c.isLt
  rcases Nat.eq_zero_or_pos c.val with h0 | h0
  · -- the left zero column
    rw [halo_ext_border _ _ _ (Or.inr (Or.inr (Or.inl h0)))]
    refine (concatenate_apply_piece (1 : Fin 2) _ _ (ix2 r c) 0 ?_ S352x1 (broadcast S352x1 (Scalar.ofBits (F := Ideal) .f32 0x00000000#32)) ?_ ?_ 0 ?_
      (ix2 r ⟨0, by decide⟩) ?_ ?_).trans ?_
    · simp
    · rfl
    · rfl
    · rfl
    · intro b hb
      match b with
      | ⟨0, _⟩ => rfl
      | ⟨1, _⟩ => exact absurd rfl hb
    · show 0 + 0 = c.val; omega
    · exact zero_word
  · by_cases h1 : c.val ≤ 1216
    · -- the plane itself
      rw [halo_ext_inside _ _ _ (by omega) (by omega) h0 h1]
      refine (concatenate_apply_piece (1 : Fin 2) _ _ (ix2 r c) 1 ?_ S352x1216 (shapeCast S352x1216 x1 shapeCasts_S1x1x352x1216_S352x1216) ?_ ?_ 1 ?_
        (ix2 r ⟨c.val - 1, by omega⟩) ?_ ?_).trans ?_
      · simp
      · rfl
      · rfl
      · rfl
      · intro b hb
        match b with
        | ⟨0, _⟩ => rfl
        | ⟨1, _⟩ => exact absurd rfl hb
      · show 1 + (c.val - 1) = c.val; omega
      · refine (shapeCast_apply x1 shapeCasts_S1x1x352x1216_S352x1216 (ix2 r ⟨c.val - 1, by omega⟩)
          (ix4 0 0 r ⟨c.val - 1, by omega⟩) (by
            rw [Shape.rowMajor_val_four, Shape.rowMajor_val_two]
            show ((0 * 1 + 0) * 352 + r.val) * 1216 + (c.val - 1) = r.val * 1216 + (c.val - 1)
            omega)).trans ?_
        exact congrArg x1 (funext fun a => Fin.ext (by
          match a with
          | ⟨0, _⟩ => rfl
          | ⟨1, _⟩ => rfl
          | ⟨2, _⟩ => show r.val = r.val + 1 - 1; omega
          | ⟨3, _⟩ => rfl))
    · -- the right zero column
      rw [halo_ext_border _ _ _ (Or.inr (Or.inr (Or.inr (by omega))))]
      refine (concatenate_apply_piece (1 : Fin 2) _ _ (ix2 r c) 2 ?_ S352x1 (broadcast S352x1 (Scalar.ofBits (F := Ideal) .f32 0x00000000#32)) ?_ ?_ 1217 ?_
        (ix2 r ⟨0, by decide⟩) ?_ ?_).trans ?_
      · simp
      · rfl
      · rfl
      · rfl
      · intro b hb
        match b with
        | ⟨0, _⟩ => rfl
        | ⟨1, _⟩ => exact absurd rfl hb
      · show 1217 + 0 = c.val; omega
      · exact zero_word

/-- THE BORDERED PLANE AT AN INDEX: the specification's `halo` of the loaded block's plane. -/
theorem bordered_at (x1 : Vec Ideal S1x1x352x1216 .f32) (q : S354x1218.Idx) :
    k0_pay3 x1 q = halo (ext fun r c => x1 (ix4 0 0 r c)) (q 0).val (q 1).val := by
  have hr : (q 0).val < 354 := (q 0).isLt
  have hc : (q 1).val < 1218 := (q 1).isLt
  rw [bordered_eq]
  rcases Nat.eq_zero_or_pos (q 0).val with h0 | h0
  · -- the top zero row
    rw [halo_ext_border _ _ _ (Or.inl h0)]
    refine (concatenate_apply_piece (0 : Fin 2) _ _ q 0 ?_ S1x1218 (broadcast S1x1218 (Scalar.ofBits (F := Ideal) .f32 0x00000000#32)) ?_ ?_ 0 ?_
      (ix2 ⟨0, by decide⟩ (q 1)) ?_ ?_).trans ?_
    · simp
    · rfl
    · rfl
    · rfl
    · intro b hb
      match b with
      | ⟨0, _⟩ => exact absurd rfl hb
      | ⟨1, _⟩ => rfl
    · show 0 + 0 = (q 0).val; omega
    · exact zero_word
  · by_cases h1 : (q 0).val ≤ 352
    · -- a row of the plane between its zero columns
      refine (concatenate_apply_piece (0 : Fin 2) _ _ q 1 ?_ S352x1218 (concatenate S352x1218 1
          [⟨S352x1, broadcast S352x1 (Scalar.ofBits (F := Ideal) .f32 0x00000000#32)⟩,
           ⟨S352x1216, shapeCast S352x1216 x1 shapeCasts_S1x1x352x1216_S352x1216⟩,
           ⟨S352x1, broadcast S352x1 (Scalar.ofBits (F := Ideal) .f32 0x00000000#32)⟩]
          concatenates_S352x1_S352x1216_S352x1_S352x1218_d1) ?_ ?_ 1 ?_
        (ix2 ⟨(q 0).val - 1, by omega⟩ (q 1)) ?_ ?_).trans ?_
      · simp
      · rfl
      · rfl
      · rfl
      · intro b hb
        match b with
        | ⟨0, _⟩ => exact absurd rfl hb
        | ⟨1, _⟩ => rfl
      · show 1 + ((q 0).val - 1) = (q 0).val; omega
      · rw [columns_at x1 ⟨(q 0).val - 1, by omega⟩ (q 1)]
        show halo _ ((q 0).val - 1 + 1) (q 1).val = _
        rw [Nat.sub_add_cancel h0]
    · -- the bottom zero row
      rw [halo_ext_border _ _ _ (Or.inr (Or.inl (by omega)))]
      refine (concatenate_apply_piece (0 : Fin 2) _ _ q 2 ?_ S1x1218 (broadcast S1x1218 (Scalar.ofBits (F := Ideal) .f32 0x00000000#32)) ?_ ?_ 353 ?_
        (ix2 ⟨0, by decide⟩ (q 1)) ?_ ?_).trans ?_
      · simp
      · rfl
      · rfl
      · rfl
      · intro b hb
        match b with
        | ⟨0, _⟩ => exact absurd rfl hb
        | ⟨1, _⟩ => rfl
      · show 353 + 0 = (q 0).val; omega
      · exact zero_word

end Cert.KernelIdeal.Hand

end
-- ==== Proof.KernelBlock.lean ====
/-
  One grid point's block. After the body, the output's staging block holds, at `(0, 0, h, w)`, the nine products of
  the weight planes at `(h, w)` with the 3×3 window of the bordered plane at `(h, w)` — the centre one with the second
  plane at `(h, w)` —, added onto zero from left to right: the specification's `convBlock` of the three loaded blocks.
  The generated value leg already reads the block as one expression of the body's eleven loads, each shifted read
  an index into the bordered plane; what is added here is what each load is (weight plane `k` of the block, read
  through the rectangle at offset `k` on the tap axis; the two planes, read whole) and the bordered plane at an index.
-/
import proofs.«172562_j38122129719886_1_alg».proof.Proof.Gen.KernelIdeal.Value
import proofs.«172562_j38122129719886_1_alg».proof.Proof.KernelBorder

noncomputable section

namespace Cert.KernelIdeal.Hand

open Cert.KernelIdeal Cert.KernelIdeal.Gen Cert.KernelIdeal.Value Idealize.ShloMosaic Idealize.ShloMosaic.ValueIdx
open Cert.Window

theorem zero_offsets : (![0, 0, 0, 0] : Fin 4 → Nat) = fun _ => 0 := funext fun a => by fin_cases a <;> rfl

/-- The block's expression of its loads, with the extended reals' sum and product. -/
theorem block_expr (P0 P1 P2 P3 P4 P5 P6 P7 P8 P9 P10 : Vec Ideal S1x1x352x1216 .f32) (y : S1x1x352x1216.Idx) :
    E3 (F := Ideal) P0 P1 P2 P3 P4 P5 P6 P7 P8 P9 P10 y
      = (Scalar.ofBits (F := Ideal) .f32 0x00000000#32 : EReal)
        + P0 (ix3_0 y) * k0_pay3 P1 (ix3_1 y) + P2 (ix3_2 y) * k0_pay3 P1 (ix3_3 y)
        + P3 (ix3_4 y) * k0_pay3 P1 (ix3_5 y) + P4 (ix3_6 y) * k0_pay3 P1 (ix3_7 y)
        + P5 (ix3_8 y) * P6 (ix3_9 y) + P7 (ix3_10 y) * k0_pay3 P1 (ix3_11 y)
        + P8 (ix3_12 y) * k0_pay3 P1 (ix3_13 y) + P9 (ix3_14 y) * k0_pay3 P1 (ix3_15 y)
        + P10 (ix3_16 y) * k0_pay3 P1 (ix3_17 y) := rfl

/-- Weight plane `k` of the block: the load through the rectangle at offset `k` on the tap axis, at a block index
    whose plane coordinates are `y`'s. -/
theorem slab_at (x0 : Vec Ideal S1x9x352x1216 .f32) (k : Nat) (hk : k < 9)
    (inb : ∀ a, (![0, k, 0, 0] : Fin 4 → Nat) a + S1x1x352x1216.size a ≤ S1x9x352x1216.size a)
    (y y' : S1x1x352x1216.Idx) (h2 : (y' 2).val = (y 2).val) (h3 : (y' 3).val = (y 3).val) :
    View.ld x0 (Rect.unit (s := S1x9x352x1216) ![0, k, 0, 0] S1x1x352x1216.size inb) y'
      = x0 (ix4 0 ⟨k, hk⟩ (y 2) (y 3)) := by
  show x0 _ = x0 _
  refine congrArg x0 (funext fun a => Fin.ext ?_)
  have h0 : (y' 0).val < 1 := (y' 0).isLt
  have h1 : (y' 1).val < 1 := (y' 1).isLt
  match a with
  | ⟨0, _⟩ => show 0 + 1 * (y' 0).val = 0; omega
  | ⟨1, _⟩ => show k + 1 * (y' 1).val = k; omega
  | ⟨2, _⟩ => show 0 + 1 * (y' 2).val = (y 2).val; omega
  | ⟨3, _⟩ => show 0 + 1 * (y' 3).val = (y 3).val; omega

/-- A block index with `y`'s plane coordinates is `(0, 0, h, w)`: the two leading axes have one entry. -/
theorem plane_idx (y y' : S1x1x352x1216.Idx) (h2 : (y' 2).val = (y 2).val) (h3 : (y' 3).val = (y 3).val) :
    y' = ix4 0 0 (y 2) (y 3) := by
  have h0 : (y' 0).val < 1 := (y' 0).isLt
  have h1 : (y' 1).val < 1 := (y' 1).isLt
  funext a
  apply Fin.ext
  match a with
  | ⟨0, _⟩ => show (y' 0).val = 0; omega
  | ⟨1, _⟩ => show (y' 1).val = 0; omega
  | ⟨2, _⟩ => exact h2
  | ⟨3, _⟩ => exact h3

/-- WHAT THE BODY LEAVES IN THE OUTPUT BLOCK is the specification's window sum of the three input blocks. -/
theorem block_eq (x0 : Vec Ideal S1x9x352x1216 .f32) (x1 x2 : Vec Ideal S1x1x352x1216 .f32) (y : S1x1x352x1216.Idx) :
    out0_3 x0 x1 x2 y = convBlock x0 x1 x2 y := by
  unfold out0_3
  rw [canon3_eq, block_expr]
  have hx1 : View.ld x1 r0_0 = x1 := View.ld_unit_zero (S := S1x1x352x1216) zero_offsets _ x1
  have hx2 : View.ld x2 r0_0 = x2 := View.ld_unit_zero (S := S1x1x352x1216) zero_offsets _ x2
  rw [hx1, hx2]
  rw [show View.ld x0 r0_1 (ix3_0 y) = x0 (ix4 0 0 (y 2) (y 3)) from slab_at x0 0 (by decide) _ y _ rfl rfl,
    show View.ld x0 r0_2 (ix3_2 y) = x0 (ix4 0 1 (y 2) (y 3)) from slab_at x0 1 (by decide) _ y _ rfl rfl,
    show View.ld x0 r0_3 (ix3_4 y) = x0 (ix4 0 2 (y 2) (y 3)) from slab_at x0 2 (by decide) _ y _ rfl rfl,
    show View.ld x0 r0_4 (ix3_6 y) = x0 (ix4 0 3 (y 2) (y 3)) from slab_at x0 3 (by decide) _ y _ rfl rfl,
    show View.ld x0 r0_5 (ix3_8 y) = x0 (ix4 0 4 (y 2) (y 3)) from slab_at x0 4 (by decide) _ y _ rfl rfl,
    show View.ld x0 r0_6 (ix3_10 y) = x0 (ix4 0 5 (y 2) (y 3)) from slab_at x0 5 (by decide) _ y _ rfl rfl,
    show View.ld x0 r0_7 (ix3_12 y) = x0 (ix4 0 6 (y 2) (y 3)) from slab_at x0 6 (by decide) _ y _ rfl rfl,
    show View.ld x0 r0_8 (ix3_14 y) = x0 (ix4 0 7 (y 2) (y 3)) from slab_at x0 7 (by decide) _ y _ rfl rfl,
    show View.ld x0 r0_9 (ix3_16 y) = x0 (ix4 0 8 (y 2) (y 3)) from slab_at x0 8 (by decide) _ y _ rfl rfl,
    plane_idx y (ix3_9 y) rfl rfl,
    bordered_at x1 (ix3_1 y), bordered_at x1 (ix3_3 y), bordered_at x1 (ix3_5 y), bordered_at x1 (ix3_7 y),
    bordered_at x1 (ix3_11 y), bordered_at x1 (ix3_13 y), bordered_at x1 (ix3_15 y), bordered_at x1 (ix3_17 y),
    zero_word, zero_add]
  rfl

end Cert.KernelIdeal.Hand

end
-- ==== Proof.KernelArray.lean ====
/-
  From blocks to the array. Grid point `t` (one of 16) works on batch entry `t`: its four blocks are entry `t` of the
  four arrays, whole in the other axes. So what point `t` writes back — the window sum of its three input blocks — is
  block `t` of `conv` of the three argument arrays, the sixteen blocks cover the result array, and after the run the
  result array is `conv` of the arguments.
-/
import proofs.«172562_j38122129719886_1_alg».proof.Proof.Gen.KernelIdeal.Value
import proofs.«172562_j38122129719886_1_alg».proof.Proof.KernelBlock

noncomputable section

namespace Cert.KernelIdeal.Hand

open Cert.KernelIdeal Cert.KernelIdeal.Gen Cert.KernelIdeal.Value Idealize.ShloMosaic Idealize.ShloMosaic.TcCoe
open Idealize.ShloMosaic.ValueIdx Idealize.SL.Sem Cert.Window
open Idealize.ShloMosaic.Pipeline (Dat)

variable (m : (ℓ : Loc nD τ sig) → Buf (Elt Ideal) ℓ) (ρ : Dev nD → PrngReg)

/-- The four index maps over the grid: block `(t, 0, 0, 0)` at point `t`. -/
theorem index_facts : ∀ t : Fin cfg0.N,
    (win0_0.index t (0 : Fin 4) = t.val ∧ win0_0.index t (1 : Fin 4) = 0 ∧ win0_0.index t (2 : Fin 4) = 0
      ∧ win0_0.index t (3 : Fin 4) = 0)
    ∧ (win0_1.index t (0 : Fin 4) = t.val ∧ win0_1.index t (1 : Fin 4) = 0 ∧ win0_1.index t (2 : Fin 4) = 0
      ∧ win0_1.index t (3 : Fin 4) = 0)
    ∧ (win0_2.index t (0 : Fin 4) = t.val ∧ win0_2.index t (1 : Fin 4) = 0 ∧ win0_2.index t (2 : Fin 4) = 0
      ∧ win0_2.index t (3 : Fin 4) = 0)
    ∧ (win0_3.index t (0 : Fin 4) = t.val ∧ win0_3.index t (1 : Fin 4) = 0 ∧ win0_3.index t (2 : Fin 4) = 0
      ∧ win0_3.index t (3 : Fin 4) = 0) :=
  (by decide +kernel : ∀ t : Fin grid0.N, _)

/-- The batch entry a grid point works on. -/
def entry (t : Fin cfg0.N) : Fin 16 := ⟨t.val, Nat.lt_of_lt_of_eq t.isLt N_0⟩

/-- The weights' block at point `t` is entry `t` of the weights. -/
theorem weights_block (c : Dev nD) (t : Fin cfg0.N) (k : Fin 9) (h : Fin 352) (w : Fin 1216) :
    (iblk m c 0 t : Vec Ideal S1x9x352x1216 .f32) (ix4 0 k h w)
      = (V m c main_arg0 : S16x9x352x1216.Idx → EReal) (ix4 (entry t) k h w) := by
  obtain ⟨⟨e0, e1, e2, e3⟩, -, -, -⟩ := index_facts t
  unfold iblk
  rw [View.read_apply]
  show V m c main_arg0 _ = V m c main_arg0 _
  congr 1
  funext a
  apply Fin.ext
  match a with
  | ⟨0, _⟩ => show win0_0.index t (0 : Fin 4) * 1 + 1 * 0 = t.val; rw [e0]; omega
  | ⟨1, _⟩ => show win0_0.index t (1 : Fin 4) * 9 + 1 * k.val = k.val; rw [e1]; omega
  | ⟨2, _⟩ => show win0_0.index t (2 : Fin 4) * 352 + 1 * h.val = h.val; rw [e2]; omega
  | ⟨3, _⟩ => show win0_0.index t (3 : Fin 4) * 1216 + 1 * w.val = w.val; rw [e3]; omega

/-- The plane's block at point `t` is entry `t` of the first plane array. -/
theorem plane_block (c : Dev nD) (t : Fin cfg0.N) (h : Fin 352) (w : Fin 1216) :
    (iblk m c 1 t : Vec Ideal S1x1x352x1216 .f32) (ix4 0 0 h w)
      = (V m c main_arg1 : S16x1x352x1216.Idx → EReal) (ix4 (entry t) 0 h w) := by
  obtain ⟨-, ⟨e0, e1, e2, e3⟩, -, -⟩ := index_facts t
  unfold iblk
  rw [View.read_apply]
  show V m c main_arg1 _ = V m c main_arg1 _
  congr 1
  funext a
  apply Fin.ext
  match a with
  | ⟨0, _⟩ => show win0_1.index t (0 : Fin 4) * 1 + 1 * 0 = t.val; rw [e0]; omega
  | ⟨1, _⟩ => show win0_1.index t (1 : Fin 4) * 1 + 1 * 0 = 0; rw [e1]
  | ⟨2, _⟩ => show win0_1.index t (2 : Fin 4) * 352 + 1 * h.val = h.val; rw [e2]; omega
  | ⟨3, _⟩ => show win0_1.index t (3 : Fin 4) * 1216 + 1 * w.val = w.val; rw [e3]; omega

/-- The centre plane's block at point `t` is entry `t` of the second plane array. -/
theorem centre_block (c : Dev nD) (t : Fin cfg0.N) (h : Fin 352) (w : Fin 1216) :
    (iblk m c 2 t : Vec Ideal S1x1x352x1216 .f32) (ix4 0 0 h w)
      = (V m c main_arg2 : S16x1x352x1216.Idx → EReal) (ix4 (entry t) 0 h w) := by
  obtain ⟨-, -, ⟨e0, e1, e2, e3⟩, -⟩ := index_facts t
  unfold iblk
  rw [View.read_apply]
  show V m c main_arg2 _ = V m c main_arg2 _
  congr 1
  funext a
  apply Fin.ext
  match a with
  | ⟨0, _⟩ => show win0_2.index t (0 : Fin 4) * 1 + 1 * 0 = t.val; rw [e0]; omega
  | ⟨1, _⟩ => show win0_2.index t (1 : Fin 4) * 1 + 1 * 0 = 0; rw [e1]
  | ⟨2, _⟩ => show win0_2.index t (2 : Fin 4) * 352 + 1 * h.val = h.val; rw [e2]; omega
  | ⟨3, _⟩ => show win0_2.index t (3 : Fin 4) * 1216 + 1 * w.val = w.val; rw [e3]; omega

/-- Where the result's block at point `t` lies in the result array: entry `t`, the block's own plane coordinates. -/
theorem result_block_idx (t : Fin cfg0.N) (y : S1x1x352x1216.Idx) :
    (((cfg0.win 3).blk t).view.emb y : S16x1x352x1216.Idx) = ix4 (entry t) 0 (y 2) (y 3) := by
  obtain ⟨-, -, -, ⟨e0, e1, e2, e3⟩⟩ := index_facts t
  have h0 : (y 0).val < 1 := (y 0).isLt
  have h1 : (y 1).val < 1 := (y 1).isLt
  funext a
  apply Fin.ext
  match a with
  | ⟨0, _⟩ => show win0_3.index t (0 : Fin 4) * 1 + 1 * (y 0).val = t.val; rw [e0]; omega
  | ⟨1, _⟩ => show win0_3.index t (1 : Fin 4) * 1 + 1 * (y 1).val = 0; rw [e1]; omega
  | ⟨2, _⟩ => show win0_3.index t (2 : Fin 4) * 352 + 1 * (y 2).val = (y 2).val; rw [e2]; omega
  | ⟨3, _⟩ => show win0_3.index t (3 : Fin 4) * 1216 + 1 * (y 3).val = (y 3).val; rw [e3]; omega

/-- WHAT POINT `t` WRITES BACK is block `t` of the window sum of the argument arrays. -/
theorem flushed_eq (c : Dev nD) (t : Fin cfg0.N) :
    (dats m 0 c).flushed 3 t = ((cfg0.win 3).blk t).view.read (Elt Ideal)
      (conv (V m c main_arg0) (V m c main_arg1) (V m c main_arg2)) := by
  rw [Value.flushed3]
  funext y
  show out0_3 (iblk m c 0 t) (iblk m c 1 t) (iblk m c 2 t) y
    = conv (V m c main_arg0) (V m c main_arg1) (V m c main_arg2) (((cfg0.win 3).blk t).view.emb y)
  rw [block_eq, result_block_idx t y]
  have e0 : ∀ k : Fin 9, (iblk m c 0 t : Vec Ideal S1x9x352x1216 .f32) (ix4 0 k (y 2) (y 3))
      = (V m c main_arg0 : S16x9x352x1216.Idx → EReal) (ix4 (entry t) k (y 2) (y 3)) :=
    fun k => weights_block m c t k ⟨(y 2).val, (y 2).isLt⟩ ⟨(y 3).val, (y 3).isLt⟩
  have e2 : (iblk m c 2 t : Vec Ideal S1x1x352x1216 .f32) (ix4 0 0 (y 2) (y 3))
      = (V m c main_arg2 : S16x1x352x1216.Idx → EReal) (ix4 (entry t) 0 (y 2) (y 3)) :=
    centre_block m c t ⟨(y 2).val, (y 2).isLt⟩ ⟨(y 3).val, (y 3).isLt⟩
  show window9 (fun k => (iblk m c 0 t : Vec Ideal S1x9x352x1216 .f32) (ix4 0 k (y 2) (y 3)))
      (fun r c' => (iblk m c 1 t : Vec Ideal S1x1x352x1216 .f32) (ix4 0 0 r c'))
      ((iblk m c 2 t : Vec Ideal S1x1x352x1216 .f32) (ix4 0 0 (y 2) (y 3))) (y 2).val (y 3).val
    = window9 (fun k => (V m c main_arg0 : S16x9x352x1216.Idx → EReal) (ix4 (entry t) k (y 2) (y 3)))
      (fun r c' => (V m c main_arg1 : S16x1x352x1216.Idx → EReal) (ix4 (entry t) 0 r c'))
      ((V m c main_arg2 : S16x1x352x1216.Idx → EReal) (ix4 (entry t) 0 (y 2) (y 3))) (y 2).val (y 3).val
  simp only [e0, e2, plane_block]

/-- An index of the result array is in point `t`'s block iff each coordinate is in the block's range on its axis. -/
theorem mem_result_block (t : Fin cfg0.N) (i : S16x1x352x1216.Idx) :
    i ∈ ((cfg0.win 3).blk t).view.set ↔ ∀ a : Fin 4, win0_3.index t a * S1x1x352x1216.size a ≤ (i a).val
      ∧ (i a).val < win0_3.index t a * S1x1x352x1216.size a + S1x1x352x1216.size a := by
  show i ∈ ((View.whole main_v0).slice (win0_3.rect t)).set ↔ _
  rw [View.set_slice_whole, Rect.mem_set_unit]
  exact Iff.rfl

/-- Every index of the result array is in the block of the point its batch coordinate names. -/
theorem covered (i : S16x1x352x1216.Idx) :
    ∃ t : Fin cfg0.N, (cfg0.win 3).flush t = true ∧ i ∈ ((cfg0.win 3).blk t).view.set := by
  have hi0 : (i 0).val < 16 := (i 0).isLt
  have hi1 : (i 1).val < 1 := (i 1).isLt
  have hi2 : (i 2).val < 352 := (i 2).isLt
  have hi3 : (i 3).val < 1216 := (i 3).isLt
  let t : Fin cfg0.N := ⟨(i 0).val, Nat.lt_of_lt_of_eq hi0 N_0.symm⟩
  obtain ⟨-, -, -, ⟨e0, e1, e2, e3⟩⟩ := index_facts t
  have e0' : win0_3.index t (0 : Fin 4) = (i 0).val := e0
  refine ⟨t, flush0_3 t, ?_⟩
  rw [mem_result_block]
  intro a
  match a with
  | ⟨0, _⟩ =>
    show win0_3.index t (0 : Fin 4) * 1 ≤ (i 0).val ∧ (i 0).val < win0_3.index t (0 : Fin 4) * 1 + 1
    rw [e0']; omega
  | ⟨1, _⟩ =>
    show win0_3.index t (1 : Fin 4) * 1 ≤ (i 1).val ∧ (i 1).val < win0_3.index t (1 : Fin 4) * 1 + 1
    rw [e1]; omega
  | ⟨2, _⟩ =>
    show win0_3.index t (2 : Fin 4) * 352 ≤ (i 2).val ∧ (i 2).val < win0_3.index t (2 : Fin 4) * 352 + 352
    rw [e2]; omega
  | ⟨3, _⟩ =>
    show win0_3.index t (3 : Fin 4) * 1216 ≤ (i 3).val ∧ (i 3).val < win0_3.index t (3 : Fin 4) * 1216 + 1216
    rw [e3]; omega

/-- THE RESULT ARRAY after the run is the window sum of the argument arrays. -/
theorem final (c : Dev nD) : (dats m 0 c).arrAt 3 cfg0.N
    = conv (m ((c : Thread nD τ).loc main_arg0)) (m ((c : Thread nD τ).loc main_arg1)) (m ((c : Thread nD τ).loc main_arg2)) :=
  (dats m 0 c).arrAt_eq_of_cover 3 _ (fun t _ => flushed_eq m c t) covered

/-- The kernel's run, read: the result array at the window sum of the arguments, the arguments unchanged. -/
theorem run : θ_run defs (onTc (τ := τ) (main (F := Ideal))) ⟨m, fun _ => 0, ρ⟩ fun r => ∀ c : Dev nD,
      r.2.mem ((c : Thread nD τ).loc main_v0)
        = conv (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.Hand

end
-- ==== Proof.RefBorder.lean ====
/-
  The reference's bordered planes. The reference pads the [16, 352, 1216] array by one zero row above and below and
  one zero column left and right of every plane, a [16, 354, 1218] array. Read at `(b, r, c)` this is plane `b` at
  `(r - 1, c - 1)` when `1 ≤ r ≤ 352` and `1 ≤ c ≤ 1216`, and the padding value on the border; the padding value is
  the integer 0 converted to a float, the real number zero. So it is the specification's `halo (ext …)` of plane `b`.
-/
import proofs.«172562_j38122129719886_1_alg».proof.Proof.Gen.ReferenceIdeal.Read
import proofs.«172562_j38122129719886_1_alg».proof.Proof.Spec
import Idealize.ShloMosaic.Lib.KernelVsHost

noncomputable section

namespace Cert.ReferenceIdeal.Hand

open Cert.ReferenceIdeal Cert.ReferenceIdeal.Gen Cert.ReferenceIdeal.Read Idealize.ShloMosaic
open Idealize.ShloMosaic.ValueIdx Cert.Window

/-- The padding value: the integer zero as a float is zero. -/
theorem pad_value : val_main_call0_v0 (F := Ideal) (Shape.Idx.first h_S_) = (0 : EReal) := by
  rw [val_main_call0_v0_apply, val_main_c_apply]
  show (((0#32 : BitVec 32).toInt : ℝ) : EReal) = 0
  simp

/-- THE PADDED ARRAY AT AN INDEX: the specification's `halo` of the plane the index's batch coordinate names. -/
theorem bordered_at (x1 : (⟨S16x1x352x1216, .f32⟩ : BufTy).Contents (Elt Ideal)) (b : Fin 16) (r : Fin 354)
    (c : Fin 1218) :
    val_main_v1 (F := Ideal) x1 (ix3 b r c) = halo (ext fun r c => x1 (ix4 b 0 r c)) r.val c.val := by
  have h0 : b.val < 16 := b.isLt
  have h1 : r.val < 354 := r.isLt
  have h2 : c.val < 1218 := c.isLt
  unfold val_main_v1
  by_cases hin : (1 ≤ r.val ∧ r.val ≤ 352) ∧ (1 ≤ c.val ∧ c.val ≤ 1216)
  · -- inside: the plane, one step up and to the left
    rw [halo_ext_inside _ _ _ hin.1.1 hin.1.2 hin.2.1 hin.2.2]
    refine (pad_apply_of_inside _ _ _ _ _ _ _ (ix3 b r c)
      (ix3 b ⟨r.val - 1, by omega⟩ ⟨c.val - 1, by omega⟩) (fun a => ?_)).trans ?_
    · match a with
      | ⟨0, _⟩ => show b.val = 0 + b.val * (0 + 1); omega
      | ⟨1, _⟩ => show r.val = 1 + (r.val - 1) * (0 + 1); omega
      | ⟨2, _⟩ => show c.val = 1 + (c.val - 1) * (0 + 1); omega
    · rw [val_main_v0_apply]
      exact congrArg x1 (funext fun a => Fin.ext (by
        match a with
        | ⟨0, _⟩ =>
          show ((b.val * 352 + (r.val - 1)) * 1216 + (c.val - 1)) / 428032 = b.val
          omega
        | ⟨1, _⟩ => rfl
        | ⟨2, _⟩ =>
          show ((b.val * 352 + (r.val - 1)) * 1216 + (c.val - 1)) / 1216 % 352 = r.val - 1
          omega
        | ⟨3, _⟩ =>
          show ((b.val * 352 + (r.val - 1)) * 1216 + (c.val - 1)) % 1216 = c.val - 1
          omega))
  · -- on the border: the padding value
    by_cases hrow : 1 ≤ r.val ∧ r.val ≤ 352
    · have hcol : ¬(1 ≤ c.val ∧ c.val ≤ 1216) := fun h => hin ⟨hrow, h⟩
      rw [halo_ext_border _ _ _ (Or.inr (Or.inr (by omega)))]
      refine (pad_apply_of_not_inside _ _ _ _ _ _ _ (ix3 b r c) (2 : Fin 3) ?_).trans pad_value
      show ¬(1 ≤ c.val ∧ (c.val - 1) % (0 + 1) = 0 ∧ (c.val - 1) / (0 + 1) < 1216)
      omega
    · rw [halo_ext_border _ _ _ (by omega)]
      refine (pad_apply_of_not_inside _ _ _ _ _ _ _ (ix3 b r c) (1 : Fin 3) ?_).trans pad_value
      show ¬(1 ≤ r.val ∧ (r.val - 1) % (0 + 1) = 0 ∧ (r.val - 1) / (0 + 1) < 352)
      omega

end Cert.ReferenceIdeal.Hand

end
-- ==== Proof.LibScatterRead.lean ====
/-
  A `stablehlo.scatter` read at one index of its result.

  `Host.scatter d f x idx upd` starts from the operand `x` and walks the update positions in row-major order; a
  position whose landing index `d.resultIdx? j idx` is `some i` replaces the element at `i` by the body `f` of that
  element and the update's element, and a position that lands outside the operand changes nothing. Seen from one
  result index `i` the walk is a fold of steps of which only those landing on `i` do anything there:
    * if no position lands on `i`, the result at `i` is the operand's element (`Host.scatter_apply_of_miss`);
    * if exactly one position `j` lands on `i`, the result at `i` is `f (x i) (upd j)` (`Host.scatter_apply_of_hit`)
      — for a body that returns the update (`x.at[…].set(v)`) this is `upd j`.
  Both come from two facts about a left fold of functions `κ → α` read at one point `k` (`foldl_apply_of_miss`,
  `foldl_apply_of_hit`), stated for an arbitrary step so that they do not depend on how the step is spelt.
-/
import Idealize.ShloMosaic.PureOps.ShapeOps
import Idealize.ShloMosaic.Lib.ValueIdx

namespace Idealize.ShloMosaic

section Fold
variable {ι κ α : Type}

/-- A left fold of functions read at a point `k` that no step of the list changes: the initial function at `k`. -/
theorem foldl_apply_of_miss (step : (κ → α) → ι → (κ → α)) (k : κ) :
    ∀ (L : List ι), (∀ n ∈ L, ∀ r, step r n k = r k) → ∀ r, L.foldl step r k = r k
  | [], _, _ => rfl
  | a :: L, h, r => by
    rw [List.foldl_cons, foldl_apply_of_miss step k L (fun n hn => h n (List.mem_cons_of_mem _ hn)),
      h a List.mem_cons_self]

/-- A left fold of functions read at a point `k` that exactly one entry `n` of a duplicate-free list changes, to
    `val` of the value found there: `val` of the initial function's value at `k`. -/
theorem foldl_apply_of_hit (step : (κ → α) → ι → (κ → α)) (k : κ) (n : ι) (val : α → α)
    (hhit : ∀ r, step r n k = val (r k)) :
    ∀ (L : List ι), L.Nodup → n ∈ L → (∀ n' ∈ L, n' ≠ n → ∀ r, step r n' k = r k) → ∀ r, L.foldl step r k = val (r k)
  | [], _, hn, _, _ => absurd hn List.not_mem_nil
  | a :: L, hnd, hn, hmiss, r => by
    rw [List.foldl_cons]
    have hnd' := List.nodup_cons.mp hnd
    by_cases ha : a = n
    · subst ha
      rw [foldl_apply_of_miss step k L (fun n' hn' =>
        hmiss n' (List.mem_cons_of_mem _ hn') (fun e => hnd'.1 (e ▸ hn'))), hhit]
    · have hnL : n ∈ L := (List.mem_cons.mp hn).resolve_left (fun e => ha e.symm)
      rw [foldl_apply_of_hit step k n val hhit L hnd'.2 hnL
        (fun n' hn' => hmiss n' (List.mem_cons_of_mem _ hn')), hmiss a List.mem_cons_self ha]

end Fold

section Scatter
variable {α : Type} {s si u : Shape} {w : Nat}

/-- A scatter read at a result index on which NO update position lands: the operand's element. -/
theorem Host.scatter_apply_of_miss (d : ScatterDims s si u) (f : α → α → α) (x : s.Idx → α) (idx : IVec si w)
    (upd : u.Idx → α) (i : s.Idx) (h : ∀ j : u.Idx, d.resultIdx? j idx ≠ some i) :
    Host.scatter d f x idx upd i = x i := by
  unfold Host.scatter
  refine foldl_apply_of_miss _ i _ (fun n _ r => ?_) x
  generalize hq : d.resultIdx? (u.rowMajor.symm n) idx = q
  cases q with
  | none => rfl
  | some i₀ =>
    have hne : i ≠ i₀ := fun e => h _ (e ▸ hq)
    show (if i = i₀ then f (r i₀) (upd (u.rowMajor.symm n)) else r i) = r i
    rw [if_neg hne]

/-- A scatter read at a result index on which EXACTLY ONE update position `j` lands: the body of the operand's
    element and that update's element. -/
theorem Host.scatter_apply_of_hit (d : ScatterDims s si u) (f : α → α → α) (x : s.Idx → α) (idx : IVec si w)
    (upd : u.Idx → α) (i : s.Idx) (j : u.Idx) (hj : d.resultIdx? j idx = some i)
    (huniq : ∀ j' : u.Idx, d.resultIdx? j' idx = some i → j' = j) :
    Host.scatter d f x idx upd i = f (x i) (upd j) := by
  unfold Host.scatter
  refine foldl_apply_of_hit _ i (u.rowMajor j) (fun a => f a (upd j)) (fun r => ?_) _
    (List.nodup_finRange _) (List.mem_finRange _) (fun n' _ hne r => ?_) x
  · rw [Equiv.symm_apply_apply, hj]
    show (if i = i then f (r i) (upd j) else r i) = f (r i) (upd j)
    rw [if_pos rfl]
  · generalize hq : d.resultIdx? (u.rowMajor.symm n') idx = q
    cases q with
    | none => rfl
    | some i₀ =>
      have hne' : i ≠ i₀ := fun e => hne (by
        have := huniq _ (e ▸ hq)
        rw [← this, Equiv.apply_symm_apply])
      show (if i = i₀ then f (r i₀) (upd (u.rowMajor.symm n')) else r i) = r i
      rw [if_neg hne']

end Scatter

end Idealize.ShloMosaic
-- ==== Proof.RefTaps.lean ====
/-
  The reference's nine taps. The reference cuts nine [16, 352, 1216] views out of the padded array, at the shifts
  `(k / 3, k % 3)`, stacks them on a new axis of extent 9, and then overwrites entry 4 of the stack with the second
  plane array. So entry `k ≠ 4` of the stack at `(b, h, w)` is the bordered plane `b` at `(h + k / 3, w + k % 3)`, and
  entry 4 is the second plane array at `(b, 0, h, w)`.
  The overwrite is a scatter of ONE index, 4, on the stacking axis, with a body that returns the update: update
  position `(b, h, w)` lands on `(b, 4, h, w)` and nowhere else, so an entry with `k ≠ 4` meets no update and entry 4 at
  `(b, h, w)` meets exactly the update at `(b, h, w)`.
-/
import proofs.«172562_j38122129719886_1_alg».proof.Proof.RefBorder
import proofs.«172562_j38122129719886_1_alg».proof.Proof.LibScatterRead
import Idealize.ShloMosaic.Lib.Pipeline.Value

noncomputable section

namespace Cert.ReferenceIdeal.Hand

open Cert.ReferenceIdeal Cert.ReferenceIdeal.Gen Cert.ReferenceIdeal.Read Idealize.ShloMosaic
open Idealize.ShloMosaic.ValueIdx Cert.Window

/-- The padded array at an index given by its three coordinates. -/
theorem bordered_of_coords (x1 : (⟨S16x1x352x1216, .f32⟩ : BufTy).Contents (Elt Ideal)) (q : S16x354x1218.Idx)
    (b : Fin 16) (r : Fin 354) (c : Fin 1218) (h0 : (q 0).val = b.val) (h1 : (q 1).val = r.val)
    (h2 : (q 2).val = c.val) :
    val_main_v1 (F := Ideal) x1 q = halo (ext fun r c => x1 (ix4 b 0 r c)) r.val c.val := by
  have e : q = ix3 b r c := funext fun a => Fin.ext (by
    match a with
    | ⟨0, _⟩ => exact h0
    | ⟨1, _⟩ => exact h1
    | ⟨2, _⟩ => exact h2)
  rw [e]
  exact bordered_at x1 b r c

/-! ## The nine shifted views -/

/-- Tap 0: the padded array shifted by `(0, 0)`. -/
theorem tap0 (x1 : (⟨S16x1x352x1216, .f32⟩ : BufTy).Contents (Elt Ideal)) (b : Fin 16) (h : Fin 352) (w : Fin 1216) :
    val_main_v11 (F := Ideal) x1 (ix4 b 0 h w)
      = halo (ext fun r c => x1 (ix4 b 0 r c)) (h.val) (w.val) := by
  have hh : h.val < 352 := h.isLt
  have hw : w.val < 1216 := w.isLt
  rw [val_main_v11_apply, val_main_v2_apply]
  exact bordered_of_coords x1 _ b ⟨h.val, by omega⟩ ⟨w.val, by omega⟩ rfl
    (by show h.val = h.val; omega) (by show w.val = w.val; omega)

/-- Tap 1: the padded array shifted by `(0, 1)`. -/
theorem tap1 (x1 : (⟨S16x1x352x1216, .f32⟩ : BufTy).Contents (Elt Ideal)) (b : Fin 16) (h : Fin 352) (w : Fin 1216) :
    val_main_v12 (F := Ideal) x1 (ix4 b 0 h w)
      = halo (ext fun r c => x1 (ix4 b 0 r c)) (h.val) (w.val + 1) := by
  have hh : h.val < 352 := h.isLt
  have hw : w.val < 1216 := w.isLt
  rw [val_main_v12_apply, val_main_v3_apply]
  exact bordered_of_coords x1 _ b ⟨h.val, by omega⟩ ⟨w.val + 1, by omega⟩ rfl
    (by show h.val = h.val; omega) (by show 1 + w.val = w.val + 1; omega)

/-- Tap 2: the padded array shifted by `(0, 2)`. -/
theorem tap2 (x1 : (⟨S16x1x352x1216, .f32⟩ : BufTy).Contents (Elt Ideal)) (b : Fin 16) (h : Fin 352) (w : Fin 1216) :
    val_main_v13 (F := Ideal) x1 (ix4 b 0 h w)
      = halo (ext fun r c => x1 (ix4 b 0 r c)) (h.val) (w.val + 2) := by
  have hh : h.val < 352 := h.isLt
  have hw : w.val < 1216 := w.isLt
  rw [val_main_v13_apply, val_main_v4_apply]
  exact bordered_of_coords x1 _ b ⟨h.val, by omega⟩ ⟨w.val + 2, by omega⟩ rfl
    (by show h.val = h.val; omega) (by show 2 + w.val = w.val + 2; omega)

/-- Tap 3: the padded array shifted by `(1, 0)`. -/
theorem tap3 (x1 : (⟨S16x1x352x1216, .f32⟩ : BufTy).Contents (Elt Ideal)) (b : Fin 16) (h : Fin 352) (w : Fin 1216) :
    val_main_v14 (F := Ideal) x1 (ix4 b 0 h w)
      = halo (ext fun r c => x1 (ix4 b 0 r c)) (h.val + 1) (w.val) := by
  have hh : h.val < 352 := h.isLt
  have hw : w.val < 1216 := w.isLt
  rw [val_main_v14_apply, val_main_v5_apply]
  exact bordered_of_coords x1 _ b ⟨h.val + 1, by omega⟩ ⟨w.val, by omega⟩ rfl
    (by show 1 + h.val = h.val + 1; omega) (by show w.val = w.val; omega)

/-- Tap 4: the padded array shifted by `(1, 1)`. -/
theorem tap4 (x1 : (⟨S16x1x352x1216, .f32⟩ : BufTy).Contents (Elt Ideal)) (b : Fin 16) (h : Fin 352) (w : Fin 1216) :
    val_main_v15 (F := Ideal) x1 (ix4 b 0 h w)
      = halo (ext fun r c => x1 (ix4 b 0 r c)) (h.val + 1) (w.val + 1) := by
  have hh : h.val < 352 := h.isLt
  have hw : w.val < 1216 := w.isLt
  rw [val_main_v15_apply, val_main_v6_apply]
  exact bordered_of_coords x1 _ b ⟨h.val + 1, by omega⟩ ⟨w.val + 1, by omega⟩ rfl
    (by show 1 + h.val = h.val + 1; omega) (by show 1 + w.val = w.val + 1; omega)

/-- Tap 5: the padded array shifted by `(1, 2)`. -/
theorem tap5 (x1 : (⟨S16x1x352x1216, .f32⟩ : BufTy).Contents (Elt Ideal)) (b : Fin 16) (h : Fin 352) (w : Fin 1216) :
    val_main_v16 (F := Ideal) x1 (ix4 b 0 h w)
      = halo (ext fun r c => x1 (ix4 b 0 r c)) (h.val + 1) (w.val + 2) := by
  have hh : h.val < 352 := h.isLt
  have hw : w.val < 1216 := w.isLt
  rw [val_main_v16_apply, val_main_v7_apply]
  exact bordered_of_coords x1 _ b ⟨h.val + 1, by omega⟩ ⟨w.val + 2, by omega⟩ rfl
    (by show 1 + h.val = h.val + 1; omega) (by show 2 + w.val = w.val + 2; omega)

/-- Tap 6: the padded array shifted by `(2, 0)`. -/
theorem tap6 (x1 : (⟨S16x1x352x1216, .f32⟩ : BufTy).Contents (Elt Ideal)) (b : Fin 16) (h : Fin 352) (w : Fin 1216) :
    val_main_v17 (F := Ideal) x1 (ix4 b 0 h w)
      = halo (ext fun r c => x1 (ix4 b 0 r c)) (h.val + 2) (w.val) := by
  have hh : h.val < 352 := h.isLt
  have hw : w.val < 1216 := w.isLt
  rw [val_main_v17_apply, val_main_v8_apply]
  exact bordered_of_coords x1 _ b ⟨h.val + 2, by omega⟩ ⟨w.val, by omega⟩ rfl
    (by show 2 + h.val = h.val + 2; omega) (by show w.val = w.val; omega)

/-- Tap 7: the padded array shifted by `(2, 1)`. -/
theorem tap7 (x1 : (⟨S16x1x352x1216, .f32⟩ : BufTy).Contents (Elt Ideal)) (b : Fin 16) (h : Fin 352) (w : Fin 1216) :
    val_main_v18 (F := Ideal) x1 (ix4 b 0 h w)
      = halo (ext fun r c => x1 (ix4 b 0 r c)) (h.val + 2) (w.val + 1) := by
  have hh : h.val < 352 := h.isLt
  have hw : w.val < 1216 := w.isLt
  rw [val_main_v18_apply, val_main_v9_apply]
  exact bordered_of_coords x1 _ b ⟨h.val + 2, by omega⟩ ⟨w.val + 1, by omega⟩ rfl
    (by show 2 + h.val = h.val + 2; omega) (by show 1 + w.val = w.val + 1; omega)

/-- Tap 8: the padded array shifted by `(2, 2)`. -/
theorem tap8 (x1 : (⟨S16x1x352x1216, .f32⟩ : BufTy).Contents (Elt Ideal)) (b : Fin 16) (h : Fin 352) (w : Fin 1216) :
    val_main_v19 (F := Ideal) x1 (ix4 b 0 h w)
      = halo (ext fun r c => x1 (ix4 b 0 r c)) (h.val + 2) (w.val + 2) := by
  have hh : h.val < 352 := h.isLt
  have hw : w.val < 1216 := w.isLt
  rw [val_main_v19_apply, val_main_v10_apply]
  exact bordered_of_coords x1 _ b ⟨h.val + 2, by omega⟩ ⟨w.val + 2, by omega⟩ rfl
    (by show 2 + h.val = h.val + 2; omega) (by show 2 + w.val = w.val + 2; omega)

/-! ## The stack of the nine views -/

/-- Entry 0 of the stack is tap 0. -/
theorem stack0 (x1 : (⟨S16x1x352x1216, .f32⟩ : BufTy).Contents (Elt Ideal)) (b : Fin 16) (h : Fin 352) (w : Fin 1216) :
    val_main_v20 (F := Ideal) x1 (ix4 b 0 h w) = val_main_v11 (F := Ideal) x1 (ix4 b 0 h w) := by
  unfold val_main_v20
  refine concatenate_apply_piece (1 : Fin 4) _ _ (ix4 b (0 : Fin 9) h w : S16x9x352x1216.Idx) 0 ?_ S16x1x352x1216
    (val_main_v11 (F := Ideal) x1) ?_ ?_ 0 ?_ (ix4 b (0 : Fin 1) h w : S16x1x352x1216.Idx) ?_ ?_
  · simp
  · rfl
  · rfl
  · rfl
  · intro a ha
    match a with
    | ⟨0, _⟩ => rfl
    | ⟨1, _⟩ => exact absurd rfl ha
    | ⟨2, _⟩ => rfl
    | ⟨3, _⟩ => rfl
  · rfl

/-- Entry 1 of the stack is tap 1. -/
theorem stack1 (x1 : (⟨S16x1x352x1216, .f32⟩ : BufTy).Contents (Elt Ideal)) (b : Fin 16) (h : Fin 352) (w : Fin 1216) :
    val_main_v20 (F := Ideal) x1 (ix4 b 1 h w) = val_main_v12 (F := Ideal) x1 (ix4 b 0 h w) := by
  unfold val_main_v20
  refine concatenate_apply_piece (1 : Fin 4) _ _ (ix4 b (1 : Fin 9) h w : S16x9x352x1216.Idx) 1 ?_ S16x1x352x1216
    (val_main_v12 (F := Ideal) x1) ?_ ?_ 1 ?_ (ix4 b (0 : Fin 1) h w : S16x1x352x1216.Idx) ?_ ?_
  · simp
  · rfl
  · rfl
  · rfl
  · intro a ha
    match a with
    | ⟨0, _⟩ => rfl
    | ⟨1, _⟩ => exact absurd rfl ha
    | ⟨2, _⟩ => rfl
    | ⟨3, _⟩ => rfl
  · rfl

/-- Entry 2 of the stack is tap 2. -/
theorem stack2 (x1 : (⟨S16x1x352x1216, .f32⟩ : BufTy).Contents (Elt Ideal)) (b : Fin 16) (h : Fin 352) (w : Fin 1216) :
    val_main_v20 (F := Ideal) x1 (ix4 b 2 h w) = val_main_v13 (F := Ideal) x1 (ix4 b 0 h w) := by
  unfold val_main_v20
  refine concatenate_apply_piece (1 : Fin 4) _ _ (ix4 b (2 : Fin 9) h w : S16x9x352x1216.Idx) 2 ?_ S16x1x352x1216
    (val_main_v13 (F := Ideal) x1) ?_ ?_ 2 ?_ (ix4 b (0 : Fin 1) h w : S16x1x352x1216.Idx) ?_ ?_
  · simp
  · rfl
  · rfl
  · rfl
  · intro a ha
    match a with
    | ⟨0, _⟩ => rfl
    | ⟨1, _⟩ => exact absurd rfl ha
    | ⟨2, _⟩ => rfl
    | ⟨3, _⟩ => rfl
  · rfl

/-- Entry 3 of the stack is tap 3. -/
theorem stack3 (x1 : (⟨S16x1x352x1216, .f32⟩ : BufTy).Contents (Elt Ideal)) (b : Fin 16) (h : Fin 352) (w : Fin 1216) :
    val_main_v20 (F := Ideal) x1 (ix4 b 3 h w) = val_main_v14 (F := Ideal) x1 (ix4 b 0 h w) := by
  unfold val_main_v20
  refine concatenate_apply_piece (1 : Fin 4) _ _ (ix4 b (3 : Fin 9) h w : S16x9x352x1216.Idx) 3 ?_ S16x1x352x1216
    (val_main_v14 (F := Ideal) x1) ?_ ?_ 3 ?_ (ix4 b (0 : Fin 1) h w : S16x1x352x1216.Idx) ?_ ?_
  · simp
  · rfl
  · rfl
  · rfl
  · intro a ha
    match a with
    | ⟨0, _⟩ => rfl
    | ⟨1, _⟩ => exact absurd rfl ha
    | ⟨2, _⟩ => rfl
    | ⟨3, _⟩ => rfl
  · rfl

/-- Entry 4 of the stack is tap 4. -/
theorem stack4 (x1 : (⟨S16x1x352x1216, .f32⟩ : BufTy).Contents (Elt Ideal)) (b : Fin 16) (h : Fin 352) (w : Fin 1216) :
    val_main_v20 (F := Ideal) x1 (ix4 b 4 h w) = val_main_v15 (F := Ideal) x1 (ix4 b 0 h w) := by
  unfold val_main_v20
  refine concatenate_apply_piece (1 : Fin 4) _ _ (ix4 b (4 : Fin 9) h w : S16x9x352x1216.Idx) 4 ?_ S16x1x352x1216
    (val_main_v15 (F := Ideal) x1) ?_ ?_ 4 ?_ (ix4 b (0 : Fin 1) h w : S16x1x352x1216.Idx) ?_ ?_
  · simp
  · rfl
  · rfl
  · rfl
  · intro a ha
    match a with
    | ⟨0, _⟩ => rfl
    | ⟨1, _⟩ => exact absurd rfl ha
    | ⟨2, _⟩ => rfl
    | ⟨3, _⟩ => rfl
  · rfl

/-- Entry 5 of the stack is tap 5. -/
theorem stack5 (x1 : (⟨S16x1x352x1216, .f32⟩ : BufTy).Contents (Elt Ideal)) (b : Fin 16) (h : Fin 352) (w : Fin 1216) :
    val_main_v20 (F := Ideal) x1 (ix4 b 5 h w) = val_main_v16 (F := Ideal) x1 (ix4 b 0 h w) := by
  unfold val_main_v20
  refine concatenate_apply_piece (1 : Fin 4) _ _ (ix4 b (5 : Fin 9) h w : S16x9x352x1216.Idx) 5 ?_ S16x1x352x1216
    (val_main_v16 (F := Ideal) x1) ?_ ?_ 5 ?_ (ix4 b (0 : Fin 1) h w : S16x1x352x1216.Idx) ?_ ?_
  · simp
  · rfl
  · rfl
  · rfl
  · intro a ha
    match a with
    | ⟨0, _⟩ => rfl
    | ⟨1, _⟩ => exact absurd rfl ha
    | ⟨2, _⟩ => rfl
    | ⟨3, _⟩ => rfl
  · rfl

/-- Entry 6 of the stack is tap 6. -/
theorem stack6 (x1 : (⟨S16x1x352x1216, .f32⟩ : BufTy).Contents (Elt Ideal)) (b : Fin 16) (h : Fin 352) (w : Fin 1216) :
    val_main_v20 (F := Ideal) x1 (ix4 b 6 h w) = val_main_v17 (F := Ideal) x1 (ix4 b 0 h w) := by
  unfold val_main_v20
  refine concatenate_apply_piece (1 : Fin 4) _ _ (ix4 b (6 : Fin 9) h w : S16x9x352x1216.Idx) 6 ?_ S16x1x352x1216
    (val_main_v17 (F := Ideal) x1) ?_ ?_ 6 ?_ (ix4 b (0 : Fin 1) h w : S16x1x352x1216.Idx) ?_ ?_
  · simp
  · rfl
  · rfl
  · rfl
  · intro a ha
    match a with
    | ⟨0, _⟩ => rfl
    | ⟨1, _⟩ => exact absurd rfl ha
    | ⟨2, _⟩ => rfl
    | ⟨3, _⟩ => rfl
  · rfl

/-- Entry 7 of the stack is tap 7. -/
theorem stack7 (x1 : (⟨S16x1x352x1216, .f32⟩ : BufTy).Contents (Elt Ideal)) (b : Fin 16) (h : Fin 352) (w : Fin 1216) :
    val_main_v20 (F := Ideal) x1 (ix4 b 7 h w) = val_main_v18 (F := Ideal) x1 (ix4 b 0 h w) := by
  unfold val_main_v20
  refine concatenate_apply_piece (1 : Fin 4) _ _ (ix4 b (7 : Fin 9) h w : S16x9x352x1216.Idx) 7 ?_ S16x1x352x1216
    (val_main_v18 (F := Ideal) x1) ?_ ?_ 7 ?_ (ix4 b (0 : Fin 1) h w : S16x1x352x1216.Idx) ?_ ?_
  · simp
  · rfl
  · rfl
  · rfl
  · intro a ha
    match a with
    | ⟨0, _⟩ => rfl
    | ⟨1, _⟩ => exact absurd rfl ha
    | ⟨2, _⟩ => rfl
    | ⟨3, _⟩ => rfl
  · rfl

/-- Entry 8 of the stack is tap 8. -/
theorem stack8 (x1 : (⟨S16x1x352x1216, .f32⟩ : BufTy).Contents (Elt Ideal)) (b : Fin 16) (h : Fin 352) (w : Fin 1216) :
    val_main_v20 (F := Ideal) x1 (ix4 b 8 h w) = val_main_v19 (F := Ideal) x1 (ix4 b 0 h w) := by
  unfold val_main_v20
  refine concatenate_apply_piece (1 : Fin 4) _ _ (ix4 b (8 : Fin 9) h w : S16x9x352x1216.Idx) 8 ?_ S16x1x352x1216
    (val_main_v19 (F := Ideal) x1) ?_ ?_ 8 ?_ (ix4 b (0 : Fin 1) h w : S16x1x352x1216.Idx) ?_ ?_
  · simp
  · rfl
  · rfl
  · rfl
  · intro a ha
    match a with
    | ⟨0, _⟩ => rfl
    | ⟨1, _⟩ => exact absurd rfl ha
    | ⟨2, _⟩ => rfl
    | ⟨3, _⟩ => rfl
  · rfl

/-! ## The overwrite of entry 4 -/

/-- Update position `(b, h, w)` lands on `(b, 4, h, w)`: the one start index is 4 on the stacking axis, and the
    update's three axes are the operand's other three, in order. -/
theorem lands (b : Fin 16) (h : Fin 352) (w : Fin 1216) :
    ScatterDims.resultIdx? scatter_S16x9x352x1216_S1_S16x352x1216_012_1_1_0 (ix3 b h w) (val_main_v22 (F := Ideal))
      = some (ix4 b 4 h w) := by
  have hsw : ∀ a : Fin 4,
      ScatterDims.start scatter_S16x9x352x1216_S1_S16x352x1216_012_1_1_0 (ix3 b h w) (val_main_v22 (F := Ideal)) a
        + (ScatterDims.window scatter_S16x9x352x1216_S1_S16x352x1216_012_1_1_0 (ix3 b h w) a : Int)
      = (((ix4 b 4 h w : S16x9x352x1216.Idx) a).val : Int) := fun a => by
    match a with
    | ⟨0, _⟩ => show (0 : Int) + ((b.val : Nat) : Int) = ((b.val : Nat) : Int); omega
    | ⟨1, _⟩ => show (4 : Int) + ((0 : Nat) : Int) = ((4 : Nat) : Int); rfl
    | ⟨2, _⟩ => show (0 : Int) + ((h.val : Nat) : Int) = ((h.val : Nat) : Int); omega
    | ⟨3, _⟩ => show (0 : Int) + ((w.val : Nat) : Int) = ((w.val : Nat) : Int); omega
  unfold ScatterDims.resultIdx?
  rw [dif_pos (fun a => by
    rw [hsw a]
    exact ⟨Int.natCast_nonneg _, Int.ofNat_lt.mpr ((ix4 b 4 h w : S16x9x352x1216.Idx) a).isLt⟩)]
  congr 1
  funext a
  apply Fin.ext
  show (ScatterDims.start scatter_S16x9x352x1216_S1_S16x352x1216_012_1_1_0 (ix3 b h w) (val_main_v22 (F := Ideal)) a
    + (ScatterDims.window scatter_S16x9x352x1216_S1_S16x352x1216_012_1_1_0 (ix3 b h w) a : Int)).toNat = _
  rw [hsw a]
  exact Int.toNat_natCast _

/-- Entry 4 of the stack after the overwrite is the second plane array. -/
theorem stack_centre (x1 x2 : (⟨S16x1x352x1216, .f32⟩ : BufTy).Contents (Elt Ideal)) (b : Fin 16) (h : Fin 352)
    (w : Fin 1216) : val_main_v23 (F := Ideal) x1 x2 (ix4 b 4 h w) = x2 (ix4 b 0 h w) := by
  have hh : h.val < 352 := h.isLt
  have hw : w.val < 1216 := w.isLt
  have hb : b.val < 16 := b.isLt
  unfold val_main_v23
  refine (Host.scatter_apply_of_hit _ _ _ _ _ (ix4 b 4 h w) (ix3 b h w) (lands b h w) (fun j' hj' => ?_)).trans ?_
  · obtain ⟨b', h', w', rfl⟩ : ∃ (b' : Fin 16) (h' : Fin 352) (w' : Fin 1216), j' = ix3 b' h' w' :=
      ⟨j' 0, j' 1, j' 2, eq_ix3 j'⟩
    rw [lands] at hj'
    have e := Option.some.inj hj'
    have e0 : b' = b := congrFun e 0
    have e2 : h' = h := congrFun e 2
    have e3 : w' = w := congrFun e 3
    rw [e0, e2, e3]
  · show val_main_v21 (F := Ideal) x2 (ix3 b h w) = _
    rw [val_main_v21_apply]
    exact congrArg x2 (funext fun a => Fin.ext (by
      match a with
      | ⟨0, _⟩ => show ((b.val * 352 + h.val) * 1216 + w.val) / 428032 = b.val; omega
      | ⟨1, _⟩ => rfl
      | ⟨2, _⟩ => show ((b.val * 352 + h.val) * 1216 + w.val) / 1216 % 352 = h.val; omega
      | ⟨3, _⟩ => show ((b.val * 352 + h.val) * 1216 + w.val) % 1216 = w.val; omega))

/-- Every other entry of the stack is untouched by the overwrite. -/
theorem stack_kept (x1 x2 : (⟨S16x1x352x1216, .f32⟩ : BufTy).Contents (Elt Ideal)) (b : Fin 16) (k : Fin 9)
    (hk : k ≠ 4) (h : Fin 352) (w : Fin 1216) :
    val_main_v23 (F := Ideal) x1 x2 (ix4 b k h w) = val_main_v20 (F := Ideal) x1 (ix4 b k h w) := by
  unfold val_main_v23
  refine Host.scatter_apply_of_miss _ _ _ _ _ (ix4 b k h w) (fun j hj => ?_)
  obtain ⟨b', h', w', rfl⟩ : ∃ (b' : Fin 16) (h' : Fin 352) (w' : Fin 1216), j = ix3 b' h' w' :=
    ⟨j 0, j 1, j 2, eq_ix3 j⟩
  rw [lands] at hj
  have e1 : (4 : Fin 9) = k := congrFun (Option.some.inj hj) 1
  exact hk e1.symm

end Cert.ReferenceIdeal.Hand

end
-- ==== Proof.RefValue.lean ====
/-
  The reference's result as one function of the three argument arrays. The reference multiplies the stack of taps,
  entry by entry, with the weights, sums over the stacking axis starting from zero, and restores the unit axis. At
  `(b, u, h, w)` that is zero plus the sum over `k < 9` of tap `k` at `(b, h, w)` times the weight at `(b, k, h, w)`: the
  specification's window sum with the two factors of every product the other way round, and a zero added in front.
  The product of extended reals is commutative and zero is neutral for their sum, so the two are equal whatever
  the entries are: no finiteness is needed.
-/
import proofs.«172562_j38122129719886_1_alg».proof.Proof.RefTaps

noncomputable section

namespace Cert.ReferenceIdeal.Hand

open Cert.ReferenceIdeal Cert.ReferenceIdeal.Gen Cert.ReferenceIdeal.Read Idealize.ShloMosaic
open Idealize.ShloMosaic.ValueIdx Cert.Window

/-- The sum starts from the zero word, the real number zero. -/
theorem sum_init : val_main_cst (F := Ideal) (Shape.Idx.first h_S_) = (0 : EReal) := by
  rw [val_main_cst_apply]
  exact Ideal.ofBits_zero_f32

/-! ## The nine products, the weight first -/

/-- Product 0: the weight times the bordered plane shifted by `(0, 0)`. -/
theorem product0 (x0 : (⟨S16x9x352x1216, .f32⟩ : BufTy).Contents (Elt Ideal))
    (x1 x2 : (⟨S16x1x352x1216, .f32⟩ : BufTy).Contents (Elt Ideal)) (b : Fin 16) (h : Fin 352) (w : Fin 1216) :
    val_main_v24 (F := Ideal) x0 x1 x2 (ix4 b 0 h w)
      = (x0 (ix4 b 0 h w) * halo (ext fun r c => x1 (ix4 b 0 r c)) (h.val) (w.val) : EReal) := by
  rw [val_main_v24_apply, stack_kept x1 x2 b 0 (by decide) h w, stack0 x1 b h w, tap0 x1 b h w]
  exact mul_comm (halo (ext fun r c => x1 (ix4 b 0 r c)) (h.val) (w.val)) (x0 (ix4 b 0 h w) : EReal)

/-- Product 1: the weight times the bordered plane shifted by `(0, 1)`. -/
theorem product1 (x0 : (⟨S16x9x352x1216, .f32⟩ : BufTy).Contents (Elt Ideal))
    (x1 x2 : (⟨S16x1x352x1216, .f32⟩ : BufTy).Contents (Elt Ideal)) (b : Fin 16) (h : Fin 352) (w : Fin 1216) :
    val_main_v24 (F := Ideal) x0 x1 x2 (ix4 b 1 h w)
      = (x0 (ix4 b 1 h w) * halo (ext fun r c => x1 (ix4 b 0 r c)) (h.val) (w.val + 1) : EReal) := by
  rw [val_main_v24_apply, stack_kept x1 x2 b 1 (by decide) h w, stack1 x1 b h w, tap1 x1 b h w]
  exact mul_comm (halo (ext fun r c => x1 (ix4 b 0 r c)) (h.val) (w.val + 1)) (x0 (ix4 b 1 h w) : EReal)

/-- Product 2: the weight times the bordered plane shifted by `(0, 2)`. -/
theorem product2 (x0 : (⟨S16x9x352x1216, .f32⟩ : BufTy).Contents (Elt Ideal))
    (x1 x2 : (⟨S16x1x352x1216, .f32⟩ : BufTy).Contents (Elt Ideal)) (b : Fin 16) (h : Fin 352) (w : Fin 1216) :
    val_main_v24 (F := Ideal) x0 x1 x2 (ix4 b 2 h w)
      = (x0 (ix4 b 2 h w) * halo (ext fun r c => x1 (ix4 b 0 r c)) (h.val) (w.val + 2) : EReal) := by
  rw [val_main_v24_apply, stack_kept x1 x2 b 2 (by decide) h w, stack2 x1 b h w, tap2 x1 b h w]
  exact mul_comm (halo (ext fun r c => x1 (ix4 b 0 r c)) (h.val) (w.val + 2)) (x0 (ix4 b 2 h w) : EReal)

/-- Product 3: the weight times the bordered plane shifted by `(1, 0)`. -/
theorem product3 (x0 : (⟨S16x9x352x1216, .f32⟩ : BufTy).Contents (Elt Ideal))
    (x1 x2 : (⟨S16x1x352x1216, .f32⟩ : BufTy).Contents (Elt Ideal)) (b : Fin 16) (h : Fin 352) (w : Fin 1216) :
    val_main_v24 (F := Ideal) x0 x1 x2 (ix4 b 3 h w)
      = (x0 (ix4 b 3 h w) * halo (ext fun r c => x1 (ix4 b 0 r c)) (h.val + 1) (w.val) : EReal) := by
  rw [val_main_v24_apply, stack_kept x1 x2 b 3 (by decide) h w, stack3 x1 b h w, tap3 x1 b h w]
  exact mul_comm (halo (ext fun r c => x1 (ix4 b 0 r c)) (h.val + 1) (w.val)) (x0 (ix4 b 3 h w) : EReal)

/-- Product 4: the weight times the second plane array. -/
theorem product4 (x0 : (⟨S16x9x352x1216, .f32⟩ : BufTy).Contents (Elt Ideal))
    (x1 x2 : (⟨S16x1x352x1216, .f32⟩ : BufTy).Contents (Elt Ideal)) (b : Fin 16) (h : Fin 352) (w : Fin 1216) :
    val_main_v24 (F := Ideal) x0 x1 x2 (ix4 b 4 h w) = (x0 (ix4 b 4 h w) * x2 (ix4 b 0 h w) : EReal) := by
  rw [val_main_v24_apply, stack_centre x1 x2 b h w]
  exact mul_comm (x2 (ix4 b 0 h w) : EReal) (x0 (ix4 b 4 h w))

/-- Product 5: the weight times the bordered plane shifted by `(1, 2)`. -/
theorem product5 (x0 : (⟨S16x9x352x1216, .f32⟩ : BufTy).Contents (Elt Ideal))
    (x1 x2 : (⟨S16x1x352x1216, .f32⟩ : BufTy).Contents (Elt Ideal)) (b : Fin 16) (h : Fin 352) (w : Fin 1216) :
    val_main_v24 (F := Ideal) x0 x1 x2 (ix4 b 5 h w)
      = (x0 (ix4 b 5 h w) * halo (ext fun r c => x1 (ix4 b 0 r c)) (h.val + 1) (w.val + 2) : EReal) := by
  rw [val_main_v24_apply, stack_kept x1 x2 b 5 (by decide) h w, stack5 x1 b h w, tap5 x1 b h w]
  exact mul_comm (halo (ext fun r c => x1 (ix4 b 0 r c)) (h.val + 1) (w.val + 2)) (x0 (ix4 b 5 h w) : EReal)

/-- Product 6: the weight times the bordered plane shifted by `(2, 0)`. -/
theorem product6 (x0 : (⟨S16x9x352x1216, .f32⟩ : BufTy).Contents (Elt Ideal))
    (x1 x2 : (⟨S16x1x352x1216, .f32⟩ : BufTy).Contents (Elt Ideal)) (b : Fin 16) (h : Fin 352) (w : Fin 1216) :
    val_main_v24 (F := Ideal) x0 x1 x2 (ix4 b 6 h w)
      = (x0 (ix4 b 6 h w) * halo (ext fun r c => x1 (ix4 b 0 r c)) (h.val + 2) (w.val) : EReal) := by
  rw [val_main_v24_apply, stack_kept x1 x2 b 6 (by decide) h w, stack6 x1 b h w, tap6 x1 b h w]
  exact mul_comm (halo (ext fun r c => x1 (ix4 b 0 r c)) (h.val + 2) (w.val)) (x0 (ix4 b 6 h w) : EReal)

/-- Product 7: the weight times the bordered plane shifted by `(2, 1)`. -/
theorem product7 (x0 : (⟨S16x9x352x1216, .f32⟩ : BufTy).Contents (Elt Ideal))
    (x1 x2 : (⟨S16x1x352x1216, .f32⟩ : BufTy).Contents (Elt Ideal)) (b : Fin 16) (h : Fin 352) (w : Fin 1216) :
    val_main_v24 (F := Ideal) x0 x1 x2 (ix4 b 7 h w)
      = (x0 (ix4 b 7 h w) * halo (ext fun r c => x1 (ix4 b 0 r c)) (h.val + 2) (w.val + 1) : EReal) := by
  rw [val_main_v24_apply, stack_kept x1 x2 b 7 (by decide) h w, stack7 x1 b h w, tap7 x1 b h w]
  exact mul_comm (halo (ext fun r c => x1 (ix4 b 0 r c)) (h.val + 2) (w.val + 1)) (x0 (ix4 b 7 h w) : EReal)

/-- Product 8: the weight times the bordered plane shifted by `(2, 2)`. -/
theorem product8 (x0 : (⟨S16x9x352x1216, .f32⟩ : BufTy).Contents (Elt Ideal))
    (x1 x2 : (⟨S16x1x352x1216, .f32⟩ : BufTy).Contents (Elt Ideal)) (b : Fin 16) (h : Fin 352) (w : Fin 1216) :
    val_main_v24 (F := Ideal) x0 x1 x2 (ix4 b 8 h w)
      = (x0 (ix4 b 8 h w) * halo (ext fun r c => x1 (ix4 b 0 r c)) (h.val + 2) (w.val + 2) : EReal) := by
  rw [val_main_v24_apply, stack_kept x1 x2 b 8 (by decide) h w, stack8 x1 b h w, tap8 x1 b h w]
  exact mul_comm (halo (ext fun r c => x1 (ix4 b 0 r c)) (h.val + 2) (w.val + 2)) (x0 (ix4 b 8 h w) : EReal)

/-! ## The sum -/

/-- The index the sum reads for tap `k` of the result's `(b, u, h, w)`. -/
theorem summand_idx (b : Fin 16) (u : Fin 1) (h : Fin 352) (w : Fin 1216) (k : Fin 9) :
    idx_main_v25 (idx_main_v26 (ix4 b u h w)) k = ix4 b k h w :=
  funext fun a => Fin.ext (by
    match a with
    | ⟨0, _⟩ => rfl
    | ⟨1, _⟩ => rfl
    | ⟨2, _⟩ => rfl
    | ⟨3, _⟩ => rfl)

/-- The result at an index: zero plus the nine products. -/
theorem result_at (x0 : (⟨S16x9x352x1216, .f32⟩ : BufTy).Contents (Elt Ideal))
    (x1 x2 : (⟨S16x1x352x1216, .f32⟩ : BufTy).Contents (Elt Ideal)) (b : Fin 16) (u : Fin 1) (h : Fin 352)
    (w : Fin 1216) :
    val_main_v26 (F := Ideal) x0 x1 x2 (ix4 b u h w)
      = val_main_v24 (F := Ideal) x0 x1 x2 (ix4 b 0 h w)
        + val_main_v24 (F := Ideal) x0 x1 x2 (ix4 b 1 h w)
        + val_main_v24 (F := Ideal) x0 x1 x2 (ix4 b 2 h w)
        + val_main_v24 (F := Ideal) x0 x1 x2 (ix4 b 3 h w)
        + val_main_v24 (F := Ideal) x0 x1 x2 (ix4 b 4 h w)
        + val_main_v24 (F := Ideal) x0 x1 x2 (ix4 b 5 h w)
        + val_main_v24 (F := Ideal) x0 x1 x2 (ix4 b 6 h w)
        + val_main_v24 (F := Ideal) x0 x1 x2 (ix4 b 7 h w)
        + val_main_v24 (F := Ideal) x0 x1 x2 (ix4 b 8 h w) := by
  rw [val_main_v26_apply, val_main_v25_apply, sum_fin9, sum_init, zero_add]
  simp only [summand_idx]

/-- THE REFERENCE IS THE SPECIFICATION: its result term, as a function of the argument arrays, is `conv`. -/
theorem reference_eq (x0 : (⟨S16x9x352x1216, .f32⟩ : BufTy).Contents (Elt Ideal))
    (x1 x2 : (⟨S16x1x352x1216, .f32⟩ : BufTy).Contents (Elt Ideal)) :
    val_main_v26 (F := Ideal) x0 x1 x2 = conv x0 x1 x2 := by
  funext i
  obtain ⟨b, u, h, w, rfl⟩ : ∃ (b : Fin 16) (u : Fin 1) (h : Fin 352) (w : Fin 1216), i = ix4 b u h w :=
    ⟨i 0, i 1, i 2, i 3, eq_ix4 i⟩
  rw [result_at, product0, product1, product2, product3, product4, product5, product6, product7, product8]
  rfl

end Cert.ReferenceIdeal.Hand

end
-- ==== Proof.lean ====
/-
  A 3×3 window sum with a replaced centre tap, computed two ways.

  For sixteen batch entries, each a 352 × 1216 plane `X[b]`, a second plane `X0[b]` and nine weight planes `K[b, k]`,
  both programs compute
      out[b, 0, h, w] = Σ_{k < 9} K[b, k, h, w] · tap_k(b, h, w),
  where tap `k ≠ 4` is the plane `X[b]`, bordered by one row and one column of zeros on every side, read at the pixel
  shifted by `(k / 3, k % 3)`, and tap 4 is `X0[b, h, w]`.
  The kernel takes one batch entry per grid point: it builds the bordered plane by joining zero strips to the loaded
  block, takes the eight shifted views of it, and adds the nine products onto zero from left to right. The reference
  pads the whole array, cuts the nine shifted views, stacks them, overwrites entry 4 of the stack with `X0`,
  multiplies the stack with the weights and sums over the stack axis. At the ideal values both are the function
  `Cert.Window.conv` of the three argument arrays (Proof/Spec.lean):
    * the kernel's result array, block by block (Proof/KernelBorder.lean: the bordered plane at an index;
      Proof/KernelBlock.lean: one grid point's block; Proof/KernelArray.lean: the sixteen blocks are the array);
    * the reference's result term (Proof/RefBorder.lean: the padded array at an index; Proof/RefTaps.lean: the nine
      taps and the overwrite of entry 4, over Proof/LibScatterRead.lean; Proof/RefValue.lean: the sum).
  The two differ only in the order of the factors of each product and in the grouping of the nine-term sum, and in a
  zero added in front; commutativity and associativity of the extended reals' sum and product, and zero being
  neutral, hold for all entries, infinite ones included, so the precondition is not used for the values.
  Nothing was rewritten when the kernel was idealized, so the kernel's idealization is its own text.
-/
import proofs.«172562_j38122129719886_1_alg».proof.Defs
import proofs.«172562_j38122129719886_1_alg».proof.Proof.Gen.Kernel
import proofs.«172562_j38122129719886_1_alg».proof.Proof.Gen.Kernel.Frame
import proofs.«172562_j38122129719886_1_alg».proof.Proof.Gen.KernelIdeal
import proofs.«172562_j38122129719886_1_alg».proof.Proof.Gen.KernelIdeal.Frame
import proofs.«172562_j38122129719886_1_alg».proof.Proof.Gen.KernelIdeal.Value
import proofs.«172562_j38122129719886_1_alg».proof.Proof.Gen.ReferenceIdeal
import proofs.«172562_j38122129719886_1_alg».proof.Proof.Gen.ReferenceIdeal.Run
import proofs.«172562_j38122129719886_1_alg».proof.Proof.Gen.ReferenceIdeal.Read
import proofs.«172562_j38122129719886_1_alg».proof.Proof.Gen.Pre_finite_inputs
import proofs.«172562_j38122129719886_1_alg».proof.Proof.KernelArray
import proofs.«172562_j38122129719886_1_alg».proof.Proof.RefValue

noncomputable section

namespace Cert.Proof

open Idealize.ShloMosaic Idealize.SL.Sem

/-- The kernel as printed runs and leaves its arguments as they were. -/
theorem frame_kernel : Cert.frame_Kernel := fun m ρ _ => Cert.Kernel.Gen.frame m ρ

/-- So does the kernel read at the ideal values. -/
theorem frame_kernel_ideal : Cert.frame_KernelIdeal := fun m ρ _ => Cert.KernelIdeal.Gen.frame m ρ

/-- The reference runs and leaves its arguments as they were: its run, the result forgotten. -/
theorem frame_reference_ideal : Cert.frame_ReferenceIdeal := fun m ρ _ =>
  (θ_run Cert.ReferenceIdeal.defs _ _).mono (fun _ h c => (h c).2) (Cert.ReferenceIdeal.Value.run (F := Ideal) m ρ)

/-- Both programs end with the window sum `conv` of the (agreeing) argument arrays in their result arrays. -/
theorem algebraic : Cert.algebraic_KernelIdeal_ReferenceIdeal := by
  intro m ρ m' ρ' _ hagree
  refine ⟨fun c => Cert.Window.conv
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v26_eq, Cert.ReferenceIdeal.Hand.reference_eq,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, trivial, algebraic⟩

end Cert.Proof

end
